-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x16 : Shape := ⟨2, ![1024, 16]⟩
abbrev S16384x4096 : Shape := ⟨2, ![16384, 4096]⟩
abbrev S4096 : Shape := ⟨1, ![4096]⟩
abbrev S4096x1000 : Shape := ⟨2, ![4096, 1000]⟩
abbrev S1000 : Shape := ⟨1, ![1000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_
  bcast_S_S4096x1000 : S_.BroadcastsInDim S4096x1000 (![] : Fin 0 → Fin S4096x1000.rank)
  reducesTo_S4096x1000_S_d0_1 : S4096x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S4096 .f32) (main_arg5 : FVec F S4096x1000 .f32) (main_arg6 : FVec F S1000 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1000 .f32 := Host.absf main_arg5
  let main_cst_8 : FVec F S_ .f32 := constant S_ .f32 0x7F800000#32
  let main_v25 : FVec F S4096x1000 .f32 := broadcastInDim S4096x1000 ![] bcast_S_S4096x1000 main_cst_8
  let main_v26 : IVec S4096x1000 1 := cmpf .olt main_v24 main_v25
  let main_c_9 : IVec S_ 1 := constantI S_ 1 1#1
  let main_v27 : IVec S_ 1 := (fun x v => Host.reduce IntOp.andi x v reducesTo_S4096x1000_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S4096x1024 .f32) (main_arg1 : FVec F S1024x16 .f32) (main_arg2 : FVec F S1024x16 .f32) (main_arg3 : FVec F S16384x4096 .f32) (main_arg4 : FVec F S4096 .f32) (main_arg5 : FVec F S4096x1000 .f32) (main_arg6 : FVec F S1000 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S1024x16 .f32 := Host.absf main_arg2
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_arg5 main_arg6 main_v13 main_v16
-- ==== Kernel.lean ====
abbrev S4096x1024 : Shape := ⟨2, ![4096, 1024]⟩
abbrev S1024x16 : Shape := ⟨2, ![1024, 16]⟩
abbrev S16384x4096 : Shape := ⟨2, ![16384, 4096]⟩
abbrev S4096 : Shape := ⟨1, ![4096]⟩
abbrev S4096x1000 : Shape := ⟨2, ![4096, 1000]⟩
abbrev S1000 : Shape := ⟨1, ![1000]⟩
abbrev S16x1024 : Shape := ⟨2, ![16, 1024]⟩
abbrev S1024x16x4096 : Shape := ⟨3, ![1024, 16, 4096]⟩
abbrev S1x4096 : Shape := ⟨2, ![1, 4096]⟩
abbrev S1x1000 : Shape := ⟨2, ![1, 1000]⟩
abbrev S4096x4096 : Shape := ⟨2, ![4096, 4096]⟩
abbrev S256x1024 : Shape := ⟨2, ![256, 1024]⟩
abbrev S1024x16x128 : Shape := ⟨3, ![1024, 16, 128]⟩
abbrev S1x128 : Shape := ⟨2, ![1, 128]⟩
abbrev S256x128 : Shape := ⟨2, ![256, 128]⟩
abbrev S1x1024 : Shape := ⟨2, ![1, 1024]⟩
abbrev S1024 : Shape := ⟨1, ![1024]⟩
abbrev S1024x1x128 : Shape := ⟨3, ![1024, 1, 128]⟩
abbrev S1024x128 : Shape := ⟨2, ![1024, 128]⟩
abbrev S512x4096 : Shape := ⟨2, ![512, 4096]⟩
abbrev S512x1000 : Shape := ⟨2, ![512, 1000]⟩

abbrev nBuf : Space → Nat
  | .hbm => 16
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x16, .f32⟩
  | .hbm, ⟨2, _⟩ => ⟨S1024x16, .f32⟩
  | .hbm, ⟨3, _⟩ => ⟨S16384x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S16x1024, .f32⟩
  | .hbm, ⟨8, _⟩ => ⟨S16x1024, .f32⟩
  | .hbm, ⟨9, _⟩ => ⟨S16384x4096, .bf16⟩
  | .hbm, ⟨10, _⟩ => ⟨S1024x16x4096, .bf16⟩
  | .hbm, ⟨11, _⟩ => ⟨S1x4096, .f32⟩
  | .hbm, ⟨12, _⟩ => ⟨S4096x1000, .bf16⟩
  | .hbm, ⟨13, _⟩ => ⟨S1x1000, .f32⟩
  | .hbm, ⟨14, _⟩ => ⟨S4096x4096, .bf16⟩
  | .hbm, ⟨15, _⟩ => ⟨S4096x1000, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S1024x16x128, .bf16⟩
  | .local _ .vmem, ⟨5, _⟩ => ⟨S1024x16x128, .bf16⟩
  | .local _ .vmem, ⟨6, _⟩ => ⟨S1x128, .f32⟩
  | .local _ .vmem, ⟨7, _⟩ => ⟨S1x128, .f32⟩
  | .local _ .vmem, ⟨8, _⟩ => ⟨S256x128, .bf16⟩
  | .local _ .vmem, ⟨9, _⟩ => ⟨S256x128, .bf16⟩
  | .local _ .vmem, ⟨10, _⟩ => ⟨S512x4096, .bf16⟩
  | .local _ .vmem, ⟨11, _⟩ => ⟨S512x4096, .bf16⟩
  | .local _ .vmem, ⟨12, _⟩ => ⟨S4096x1000, .bf16⟩
  | .local _ .vmem, ⟨13, _⟩ => ⟨S1x1000, .f32⟩
  | .local _ .vmem, ⟨14, _⟩ => ⟨S512x1000, .f32⟩
  | .local _ .vmem, ⟨15, _⟩ => ⟨S512x1000, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S1024x16_S16x1024_1_0 : S1024x16.Transposes [1, 0] S16x1024
  bitsLt_bf16_f32 : FTy.bits .bf16 < FTy.bits .f32
  shapeCasts_S16384x4096_S1024x16x4096 : S16384x4096.ShapeCasts S1024x16x4096
  shapeCasts_S4096_S1x4096 : S4096.ShapeCasts S1x4096
  shapeCasts_S1000_S1x1000 : S1000.ShapeCasts S1x1000
  inb_S256x1024_S256x1024_0_0 : ∀ a, (![0, 0] : Fin 2 → Nat) a + S256x1024.size a ≤ S256x1024.size a
  h_S256x1024 : 0 < S256x1024.numel
  inb_S16x1024_S1x1024_0_0 : ∀ a, (![0, 0] : Fin 2 → Nat) a + S1x1024.size a ≤ S16x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S1024x16x128_S1024x1x128_0_0_0 : ∀ a, (![0, 0, 0] : Fin 3 → Nat) a + S1024x1x128.size a ≤ S1024x16x128.size a
  h_S1024x1x128 : 0 < S1024x1x128.numel
  shapeCasts_S1024x1x128_S1024x128 : S1024x1x128.ShapeCasts S1024x128
  inb_S16x1024_S1x1024_1_0 : ∀ a, (![1, 0] : Fin 2 → Nat) a + S1x1024.size a ≤ S16x1024.size a
  inb_S1024x16x128_S1024x1x128_0_1_0 : ∀ a, (![0, 1, 0] : Fin 3 → Nat) a + S1024x1x128.size a ≤ S1024x16x128.size a
  inb_S16x1024_S1x1024_2_0 : ∀ a, (![2, 0] : Fin 2 → Nat) a + S1x1024.size a ≤ S16x1024.size a
  inb_S1024x16x128_S1024x1x128_0_2_0 : ∀ a, (![0, 2, 0] : Fin 3 → Nat) a + S1024x1x128.size a ≤ S1024x16x128.size a
  inb_S16x1024_S1x1024_3_0 : ∀ a, (![3, 0] : Fin 2 → Nat) a + S1x1024.size a ≤ S16x1024.size a
  inb_S1024x16x128_S1024x1x128_0_3_0 : ∀ a, (![0, 3, 0] : Fin 3 → Nat) a + S1024x1x128.size a ≤ S1024x16x128.size a
  inb_S16x1024_S1x1024_4_0 : ∀ a, (![4, 0] : Fin 2 → Nat) a + S1x1024.size a ≤ S16x1024.size a
  inb_S1024x16x128_S1024x1x128_0_4_0 : ∀ a, (![0, 4, 0] : Fin 3 → Nat) a + S1024x1x128.size a ≤ S1024x16x128.size a
  inb_S16x1024_S1x1024_5_0 : ∀ a, (![5, 0] : Fin 2 → Nat) a + S1x1024.size a ≤ S16x1024.size a
  inb_S1024x16x128_S1024x1x128_0_5_0 : ∀ a, (![0, 5, 0] : Fin 3 → Nat) a + S1024x1x128.size a ≤ S1024x16x128.size a
  inb_S16x1024_S1x1024_6_0 : ∀ a, (![6, 0] : Fin 2 → Nat) a + S1x1024.size a ≤ S16x1024.size a
  inb_S1024x16x128_S1024x1x128_0_6_0 : ∀ a, (![0, 6, 0] : Fin 3 → Nat) a + S1024x1x128.size a ≤ S1024x16x128.size a
  inb_S16x1024_S1x1024_7_0 : ∀ a, (![7, 0] : Fin 2 → Nat) a + S1x1024.size a ≤ S16x1024.size a
  inb_S1024x16x128_S1024x1x128_0_7_0 : ∀ a, (![0, 7, 0] : Fin 3 → Nat) a + S1024x1x128.size a ≤ S1024x16x128.size a
  inb_S16x1024_S1x1024_8_0 : ∀ a, (![8, 0] : Fin 2 → Nat) a + S1x1024.size a ≤ S16x1024.size a
  inb_S1024x16x128_S1024x1x128_0_8_0 : ∀ a, (![0, 8, 0] : Fin 3 → Nat) a + S1024x1x128.size a ≤ S1024x16x128.size a
  inb_S16x1024_S1x1024_9_0 : ∀ a, (![9, 0] : Fin 2 → Nat) a + S1x1024.size a ≤ S16x1024.size a
  inb_S1024x16x128_S1024x1x128_0_9_0 : ∀ a, (![0, 9, 0] : Fin 3 → Nat) a + S1024x1x128.size a ≤ S1024x16x128.size a
  inb_S16x1024_S1x1024_10_0 : ∀ a, (![10, 0] : Fin 2 → Nat) a + S1x1024.size a ≤ S16x1024.size a
  inb_S1024x16x128_S1024x1x128_0_10_0 : ∀ a, (![0, 10, 0] : Fin 3 → Nat) a + S1024x1x128.size a ≤ S1024x16x128.size a
  inb_S16x1024_S1x1024_11_0 : ∀ a, (![11, 0] : Fin 2 → Nat) a + S1x1024.size a ≤ S16x1024.size a
  inb_S1024x16x128_S1024x1x128_0_11_0 : ∀ a, (![0, 11, 0] : Fin 3 → Nat) a + S1024x1x128.size a ≤ S1024x16x128.size a
  inb_S16x1024_S1x1024_12_0 : ∀ a, (![12, 0] : Fin 2 → Nat) a + S1x1024.size a ≤ S16x1024.size a
  inb_S1024x16x128_S1024x1x128_0_12_0 : ∀ a, (![0, 12, 0] : Fin 3 → Nat) a + S1024x1x128.size a ≤ S1024x16x128.size a
  inb_S16x1024_S1x1024_13_0 : ∀ a, (![13, 0] : Fin 2 → Nat) a + S1x1024.size a ≤ S16x1024.size a
  inb_S1024x16x128_S1024x1x128_0_13_0 : ∀ a, (![0, 13, 0] : Fin 3 → Nat) a + S1024x1x128.size a ≤ S1024x16x128.size a
  inb_S16x1024_S1x1024_14_0 : ∀ a, (![14, 0] : Fin 2 → Nat) a + S1x1024.size a ≤ S16x1024.size a
  inb_S1024x16x128_S1024x1x128_0_14_0 : ∀ a, (![0, 14, 0] : Fin 3 → Nat) a + S1024x1x128.size a ≤ S1024x16x128.size a
  inb_S16x1024_S1x1024_15_0 : ∀ a, (![15, 0] : Fin 2 → Nat) a + S1x1024.size a ≤ S16x1024.size a
  inb_S1024x16x128_S1024x1x128_0_15_0 : ∀ a, (![0, 15, 0] : Fin 3 → Nat) a + S1024x1x128.size a ≤ S1024x16x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1000_S4096x1000_0_0 : ∀ a, (![0, 0] : Fin 2 → Nat) a + S4096x1000.size a ≤ S4096x1000.size a
  h_S4096x1000 : 0 < S4096x1000.numel
  shapeCasts_S4096x1000_S4096x1000 : S4096x1000.ShapeCasts S4096x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  dot_S256x1024_S1024x128_S256x128_1_0_0_1_n_n_wf : DotDims.WF S256x1024 S1024x128 S256x128 [1] [0] [0] [1] [] []
  dot_S512x4096_S4096x1000_S512x1000_1_0_0_1_n_n_wf : DotDims.WF S512x4096 S4096x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x1024.size a
  hwx0_2 : ∀ i : grid0.Coords, EltTy.bits .f32 = 32 ∨ (Rect.block (s := S16x1024) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16x128.size a ≤ S1024x16x4096.size a
  hwx0_3 : ∀ i : grid0.Coords, EltTy.bits .bf16 = 32 ∨ (Rect.block (s := S1024x16x4096) S1024x16x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x4096.size a
  hwx0_4 : ∀ i : grid0.Coords, EltTy.bits .f32 = 32 ∨ (Rect.block (s := S1x4096) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S4096x4096.size a
  hwx0_5 : ∀ i : grid0.Coords, EltTy.bits .bf16 = 32 ∨ (Rect.block (s := S4096x4096) S256x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1000.size a ≤ S4096x1000.size a
  hwx1_1 : ∀ i : grid1.Coords, EltTy.bits .bf16 = 32 ∨ (Rect.block (s := S4096x1000) S4096x1000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1000.size a ≤ S4096x1000.size a
  hwx1_3 : ∀ i : grid1.Coords, EltTy.bits .f32 = 32 ∨ (Rect.block (s := S4096x1000) S512x1000.size (cc1_transform_3 i) (hinb1_3 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S512x4096_S4096x1000_S512x1000_1_0_0_1_n_n : DotDims S512x4096 S4096x1000 S512x1000 where
  lhsContracting := [1]
  rhsContracting := [0]
  lhsNonContracting := [0]
  rhsNonContracting := [1]
  lhsBatch := []
  rhsBatch := []
  wf := dot_S512x4096_S4096x1000_S512x1000_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x16 : Shape := ⟨2, ![1024, 16]⟩
abbrev S16384x4096 : Shape := ⟨2, ![16384, 4096]⟩
abbrev S4096 : Shape := ⟨1, ![4096]⟩
abbrev S4096x1000 : Shape := ⟨2, ![4096, 1000]⟩
abbrev S1000 : Shape := ⟨1, ![1000]⟩
abbrev S4096x1024x1 : Shape := ⟨3, ![4096, 1024, 1]⟩
abbrev S1x1024x16 : Shape := ⟨3, ![1, 1024, 16]⟩
abbrev S4096x1024x16 : Shape := ⟨3, ![4096, 1024, 16]⟩
abbrev S4096x16384 : Shape := ⟨2, ![4096, 16384]⟩
abbrev S4096x4096 : Shape := ⟨2, ![4096, 4096]⟩
abbrev S1x4096 : Shape := ⟨2, ![1, 4096]⟩
abbrev S_ : Shape := ⟨0, ![]⟩
abbrev S1x1000 : Shape := ⟨2, ![1, 1000]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x16, .f32⟩
  | .hbm, ⟨2, _⟩ => ⟨S1024x16, .f32⟩
  | .hbm, ⟨3, _⟩ => ⟨S16384x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S4096x1024x1, .f32⟩
  | .hbm, ⟨8, _⟩ => ⟨S1x1024x16, .f32⟩
  | .hbm, ⟨9, _⟩ => ⟨S4096x1024x16, .f32⟩
  | .hbm, ⟨10, _⟩ => ⟨S4096x1024x16, .f32⟩
  | .hbm, ⟨11, _⟩ => ⟨S4096x1024x16, .f32⟩
  | .hbm, ⟨12, _⟩ => ⟨S1x1024x16, .f32⟩
  | .hbm, ⟨13, _⟩ => ⟨S4096x1024x16, .f32⟩
  | .hbm, ⟨14, _⟩ => ⟨S4096x1024x16, .f32⟩
  | .hbm, ⟨15, _⟩ => ⟨S4096x1024x16, .f32⟩
  | .hbm, ⟨16, _⟩ => ⟨S4096x16384, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1000, .f32⟩
  | .hbm, ⟨30, _⟩ => ⟨S1x1000, .f32⟩
  | .hbm, ⟨31, _⟩ => ⟨S4096x1000, .f32⟩
  | .hbm, ⟨32, _⟩ => ⟨S4096x1000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S4096x1024_S4096x1024x1_0_1 : S4096x1024.BroadcastsInDim S4096x1024x1 (![0, 1] : Fin 2 → Fin S4096x1024x1.rank)
  bcast_S1024x16_S1x1024x16_1_2 : S1024x16.BroadcastsInDim S1x1024x16 (![1, 2] : Fin 2 → Fin S1x1024x16.rank)
  bcast_S4096x1024x1_S4096x1024x16_0_1_2 : S4096x1024x1.BroadcastsInDim S4096x1024x16 (![0, 1, 2] : Fin 3 → Fin S4096x1024x16.rank)
  bcast_S1x1024x16_S4096x1024x16_0_1_2 : S1x1024x16.BroadcastsInDim S4096x1024x16 (![0, 1, 2] : Fin 3 → Fin S4096x1024x16.rank)
  shapeCasts_S4096x1024x16_S4096x16384 : S4096x1024x16.ShapeCasts S4096x16384
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x16384_S16384x4096_S4096x4096_1_0_0_1_n_n_wf : DotDims.WF S4096x16384 S16384x4096 S4096x4096 [1] [0] [0] [1] [] []
  dot_S4096x4096_S4096x1000_S4096x1000_1_0_0_1_n_n_wf : DotDims.WF S4096x4096 S4096x1000 S4096x1000 [1] [0] [0] [1] [] []

variable [Facts₀]

def dot_S4096x16384_S16384x4096_S4096x4096_1_0_0_1_n_n : DotDims S4096x16384 S16384x4096 S4096x4096 where
  lhsContracting := [1]
  rhsContracting := [0]
  lhsNonContracting := [0]
  rhsNonContracting := [1]
  lhsBatch := []
  rhsBatch := []
  wf := dot_S4096x16384_S16384x4096_S4096x4096_1_0_0_1_n_n_wf
def dot_S4096x4096_S4096x1000_S4096x1000_1_0_0_1_n_n : DotDims S4096x4096 S4096x1000 S4096x1000 where
  lhsContracting := [1]
  rhsContracting := [0]
  lhsNonContracting := [0]
  rhsNonContracting := [1]
  lhsBatch := []
  rhsBatch := []
  wf := dot_S4096x4096_S4096x1000_S4096x1000_1_0_0_1_n_n_wf

class Facts : Prop extends Facts₀ where

variable [Facts]
-- ==== Proof.LibFlatPairs.lean ====
/-
  Sums and greatest elements over the pairs of two finite ranges, in the orders programs take them.

  A table `f s t` with `s` over `n` rows and `t` over `m` columns can be summed over the pairs `(s, t)`, row by row
  (each row first, then the row totals), or as one list of `N = n · m` entries in row-major order, entry `k` being
  `f (k / m) (k % m)`. In a commutative monoid the three sums agree; in a lattice with a least element the three
  greatest elements agree. A fold of `max` from the least element is that greatest element.
-/
import Mathlib.Algebra.BigOperators.Fin
import Mathlib.Order.CompleteLattice.Finset
import Mathlib.Data.Fintype.BigOperators
import Mathlib.Data.EReal.Basic

namespace Cert.FlatPairs

variable {n m N : ℕ}

/-- The row of entry `k` of the flattened table. -/
def rowOf (h : N = n * m) (k : Fin N) : Fin n :=
  ⟨k.val / m, by
    have hk := k.isLt
    rcases Nat.eq_zero_or_pos m with hm | hm
    · subst hm; omega
    · exact (Nat.div_lt_iff_lt_mul hm).2 (h ▸ hk)⟩
/-- Its column. -/
def colOf (h : N = n * m) (k : Fin N) : Fin m :=
  ⟨k.val % m, by
    have hk := k.isLt
    rcases Nat.eq_zero_or_pos m with hm | hm
    · subst hm; omega
    · exact Nat.mod_lt _ hm⟩

/-- Entry `(s, t)` sits at position `s · m + t`. -/
def posOf (h : N = n * m) (p : Fin n × Fin m) : Fin N :=
  ⟨p.1.val * m + p.2.val, by
    have h1 := p.1.isLt; have h2 := p.2.isLt
    calc p.1.val * m + p.2.val < p.1.val * m + m := by omega
      _ = (p.1.val + 1) * m := by ring
      _ ≤ n * m := Nat.mul_le_mul_right m h1
      _ = N := h.symm⟩

/-- Row-major flattening as a bijection between positions and pairs. -/
def pairEquiv (h : N = n * m) : Fin N ≃ Fin n × Fin m where
  toFun k := (rowOf h k, colOf h k)
  invFun := posOf h
  left_inv k := Fin.ext (by
    show k.val / m * m + k.val % m = k.val
    rw [Nat.mul_comm]; exact Nat.div_add_mod k.val m)
  right_inv p := by
    have h2 := p.2.isLt
    have hm : 0 < m := by omega
    refine Prod.ext (Fin.ext ?_) (Fin.ext ?_)
    · show (p.1.val * m + p.2.val) / m = p.1.val
      rw [Nat.mul_comm, Nat.mul_add_div hm, Nat.div_eq_of_lt h2, Nat.add_zero]
    · show (p.1.val * m + p.2.val) % m = p.2.val
      rw [Nat.mul_comm, Nat.mul_add_mod, Nat.mod_eq_of_lt h2]

section sums
variable {M : Type} [AddCommMonoid M]

/-- The sum over the pairs is the sum of the row totals. -/
theorem sum_rows (f : Fin n → Fin m → M) : ∑ p : Fin n × Fin m, f p.1 p.2 = ∑ s, ∑ t, f s t :=
  Fintype.sum_prod_type' f

/-- The sum of the flattened table is the sum over the pairs. -/
theorem sum_flat (h : N = n * m) (f : Fin n → Fin m → M) :
    ∑ k : Fin N, f (rowOf h k) (colOf h k) = ∑ p : Fin n × Fin m, f p.1 p.2 :=
  Fintype.sum_equiv (pairEquiv h) _ _ fun _ => rfl
end sums

section sups
variable {L : Type} [SemilatticeSup L] [OrderBot L]

/-- The greatest element over the pairs is the greatest of the rows' greatest elements. -/
theorem sup_rows (f : Fin n → Fin m → L) :
    (Finset.univ : Finset (Fin n × Fin m)).sup (fun p => f p.1 p.2)
      = (Finset.univ : Finset (Fin n)).sup fun s => (Finset.univ : Finset (Fin m)).sup fun t => f s t := by
  apply le_antisymm
  · refine Finset.sup_le fun p _ => ?_
    exact le_trans (Finset.le_sup (f := fun t => f p.1 t) (Finset.mem_univ p.2))
      (Finset.le_sup (f := fun s => (Finset.univ : Finset (Fin m)).sup fun t => f s t) (Finset.mem_univ p.1))
  · refine Finset.sup_le fun s _ => Finset.sup_le fun t _ => ?_
    exact Finset.le_sup (f := fun p : Fin n × Fin m => f p.1 p.2) (Finset.mem_univ (s, t))

/-- The greatest element of the flattened table is the greatest over the pairs. -/
theorem sup_flat (h : N = n * m) (f : Fin n → Fin m → L) :
    (Finset.univ : Finset (Fin N)).sup (fun k => f (rowOf h k) (colOf h k))
      = (Finset.univ : Finset (Fin n × Fin m)).sup fun p => f p.1 p.2 := by
  apply le_antisymm
  · refine Finset.sup_le fun k _ => ?_
    exact Finset.le_sup (f := fun p : Fin n × Fin m => f p.1 p.2) (Finset.mem_univ (pairEquiv h k))
  · refine Finset.sup_le fun p _ => ?_
    have := Finset.le_sup (f := fun k => f (rowOf h k) (colOf h k)) (Finset.mem_univ ((pairEquiv h).symm p))
    have e : pairEquiv h ((pairEquiv h).symm p) = p := (pairEquiv h).apply_symm_apply p
    have e1 : rowOf h ((pairEquiv h).symm p) = p.1 := congrArg Prod.fst e
    have e2 : colOf h ((pairEquiv h).symm p) = p.2 := congrArg Prod.snd e
    simpa only [e1, e2] using this
end sups

/-- A fold of `max` from the least element over a finite set is the set's greatest element. -/
theorem fold_max_bot {ι : Type} [DecidableEq ι] (s : Finset ι) (f : ι → EReal) : s.fold max ⊥ f = s.sup f := by
  induction s using Finset.induction_on with
  | empty => simp
  | insert a s ha ih => rw [Finset.fold_insert ha, Finset.sup_insert, ih]

end Cert.FlatPairs
-- ==== Proof.Spec.lean ====
/-
  A dense network with a tanh basis expansion, entry by entry over the extended reals.

  Every input coordinate x(r,i) of row r is expanded into sixteen features tanh((x(r,i) - c(i,b)) * s(i,b)), b < 16.
  The 1024 * 16 features of a row, laid out with feature (i,b) at position i*16 + b, are contracted with a weight
  matrix of 16384 rows, a bias is added, the logistic function 1/(1 + exp(-h)) is applied, and the 4096 hidden
  values of the row are contracted with a second weight matrix and shifted by a second bias.

  The contraction over the 16384 positions can be taken in one pass over the flattened axis, or basis by basis:
  for each b the sum over i, the sixteen partial sums then added one after the other starting from zero.  Addition of
  extended reals is commutative and associative, so the two agree, with no assumption that anything is finite.
-/
import Idealize.ShloMosaic.PureOps.Ideal
import Idealize.ShloMosaic.Lib.ValueIdx
import proofs.«131428_j53283364274889_2_alg».proof.Proof.LibFlatPairs

noncomputable section

namespace Cert.BasisNet

open Idealize.ShloMosaic Idealize.ShloMosaic.ValueIdx

/-- A matrix of extended reals. -/
abbrev Arr2 (a b : ℕ) : Type := (⟨2, ![a, b]⟩ : Shape).Idx → EReal
/-- A vector of extended reals. -/
abbrev Arr1 (a : ℕ) : Type := (⟨1, ![a]⟩ : Shape).Idx → EReal

/-- Feature b of input coordinate i in row r. -/
def feat (x : Arr2 4096 1024) (cen scl : Arr2 1024 16) (r : Fin 4096) (i : Fin 1024) (b : Fin 16) : EReal :=
  Ideal.tanh ((x (ix2 r i) - cen (ix2 i b)) * scl (ix2 i b))

/-- Where feature (i,b) sits on the flattened axis. -/
def flat (i : Fin 1024) (b : Fin 16) : Fin 16384 :=
  ⟨i.val * 16 + b.val, by have := i.isLt; have := b.isLt; omega⟩

/-- The share of basis function b in hidden unit n of row r: the sum over the input coordinates. -/
def share (x : Arr2 4096 1024) (cen scl : Arr2 1024 16) (Wb : Arr2 16384 4096) (r : Fin 4096) (n : Fin 4096)
    (b : Fin 16) : EReal :=
  ∑ i : Fin 1024, feat x cen scl r i b * Wb (ix2 (flat i b) n)

/-- Hidden unit n of row r. -/
def hidden (x : Arr2 4096 1024) (cen scl : Arr2 1024 16) (Wb : Arr2 16384 4096) (bb : Arr1 4096)
    (r : Fin 4096) (n : Fin 4096) : EReal :=
  Ideal.logistic ((∑ b : Fin 16, share x cen scl Wb r n b) + bb (ix1 n))

/-- Output o of row r. -/
def logit (x : Arr2 4096 1024) (cen scl : Arr2 1024 16) (Wb : Arr2 16384 4096) (bb : Arr1 4096)
    (Wh : Arr2 4096 1000) (bh : Arr1 1000) (r : Fin 4096) (o : Fin 1000) : EReal :=
  (∑ k : Fin 4096, hidden x cen scl Wb bb r k * Wh (ix2 k o)) + bh (ix1 o)

/-- The whole output array. -/
def logits (x : Arr2 4096 1024) (cen scl : Arr2 1024 16) (Wb : Arr2 16384 4096) (bb : Arr1 4096)
    (Wh : Arr2 4096 1000) (bh : Arr1 1000) : Arr2 4096 1000 :=
  fun j => logit x cen scl Wb bb Wh bh ⟨(j 0).val, (j 0).isLt⟩ ⟨(j 1).val, (j 1).isLt⟩

theorem logits_apply (x : Arr2 4096 1024) (cen scl : Arr2 1024 16) (Wb : Arr2 16384 4096) (bb : Arr1 4096)
    (Wh : Arr2 4096 1000) (bh : Arr1 1000) (r : Fin 4096) (o : Fin 1000) :
    logits x cen scl Wb bb Wh bh (ix2 r o) = logit x cen scl Wb bb Wh bh r o := rfl

/-- Sixteen terms added one after the other from zero are their sum. -/
theorem sum_sixteen {M : Type} [AddCommMonoid M] (T : Fin 16 → M) :
    0 + T 0 + T 1 + T 2 + T 3 + T 4 + T 5 + T 6 + T 7 + T 8 + T 9 + T 10 + T 11 + T 12 + T 13 + T 14 + T 15
      = ∑ b : Fin 16, T b := by
  simp only [Fin.sum_univ_castSucc, Fin.sum_univ_zero]
  rfl

/-- One pass over the flattened axis is the sum of the sixteen shares: position K holds feature (K / 16, K % 16). -/
theorem flat_pass (g : Fin 1024 → Fin 16 → EReal) (w : Fin 16384 → EReal) :
    ∑ K : Fin 16384, g ⟨K.val / 16, by have := K.isLt; omega⟩ ⟨K.val % 16, by omega⟩ * w K
      = ∑ b : Fin 16, ∑ i : Fin 1024, g i b * w (flat i b) := by
  have h : (16384 : ℕ) = 1024 * 16 := by norm_num
  rw [Finset.sum_comm, ← Cert.FlatPairs.sum_rows (fun i b => g i b * w (flat i b)),
    ← Cert.FlatPairs.sum_flat h (fun i b => g i b * w (flat i b))]
  refine Finset.sum_congr rfl fun K _ => ?_
  have e : flat (Cert.FlatPairs.rowOf h K) (Cert.FlatPairs.colOf h K) = K := Fin.ext (by
    show K.val / 16 * 16 + K.val % 16 = K.val
    omega)
  rw [e]
  rfl

end Cert.BasisNet

end
-- ==== Proof.RefValue.lean ====
/-
  The reference network is the specification, entry by entry.

  The reference forms every feature tanh((x(r,i) - c(i,b)) * s(i,b)) in an array indexed (r,i,b), flattens the last two
  axes (feature (i,b) goes to position i*16 + b), contracts the flattened axis with the first weight matrix in one
  pass, adds the bias, applies 1/(1 + exp(-h)), contracts with the second weight matrix and adds the second bias.
  The one pass over the flattened axis is the sum of the sixteen shares (`flat_pass`), and 1/(1 + exp(-h)), with the
  constant one, is the logistic function.
-/
import proofs.«131428_j53283364274889_2_alg».proof.Proof.Gen.ReferenceIdeal.Read
import proofs.«131428_j53283364274889_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.BasisNet

/-- The f32 word of one is the extended real one. -/
theorem ofBits_one : Ideal.ofBits .f32 0x3F800000#32 = 1 := by
  simp [Ideal.ofBits, Ideal.ieee, -EReal.coe_mul]; norm_num

/-- The feature array read at position K of the flattened axis of row r: feature (K / 16, K % 16). -/
theorem feats_apply (x0 : Arr2 4096 1024) (x1 x2 : Arr2 1024 16) (r : Fin 4096) (K : Fin 16384) :
    val_main_v9 (F := Ideal) x0 x1 x2 (ix2 r K)
      = feat x0 x1 x2 r ⟨K.val / 16, by have := K.isLt; omega⟩ ⟨K.val % 16, by omega⟩ := by
  have hr := r.isLt
  have hK := K.isLt
  rw [val_main_v9_apply, val_main_v8_apply, val_main_v7_apply, val_main_v4_apply, val_main_v2_apply, val_main_v0_apply,
    val_main_v3_apply, val_main_v1_apply, val_main_v6_apply, val_main_v5_apply]
  have e0 : idx_main_v0 (idx_main_v2 (idx_main_v9 (ix2 r K))) = ix2 r ⟨K.val / 16, by omega⟩ :=
    funext fun a => Fin.ext (by
      match a with
      | ⟨0, _⟩ => show (r.val * 16384 + K.val) / 16384 = r.val; omega
      | ⟨1, _⟩ => show (r.val * 16384 + K.val) / 16 % 1024 = K.val / 16; omega)
  have e1 : idx_main_v1 (idx_main_v3 (idx_main_v9 (ix2 r K))) = ix2 (⟨K.val / 16, by omega⟩ : Fin 1024) (⟨K.val % 16, by omega⟩ : Fin 16) :=
    funext fun a => Fin.ext (by
      match a with
      | ⟨0, _⟩ => show (r.val * 16384 + K.val) / 16 % 1024 = K.val / 16; omega
      | ⟨1, _⟩ => show (r.val * 16384 + K.val) % 16 = K.val % 16; omega)
  have e2 : idx_main_v5 (idx_main_v6 (idx_main_v9 (ix2 r K))) = ix2 (⟨K.val / 16, by omega⟩ : Fin 1024) (⟨K.val % 16, by omega⟩ : Fin 16) :=
    funext fun a => Fin.ext (by
      match a with
      | ⟨0, _⟩ => show (r.val * 16384 + K.val) / 16 % 1024 = K.val / 16; omega
      | ⟨1, _⟩ => show (r.val * 16384 + K.val) % 16 = K.val % 16; omega)
  rw [e0, e1, e2]
  rfl

/-- The hidden layer of the reference at (r,n). -/
theorem hidden_apply (x0 : Arr2 4096 1024) (x1 x2 : Arr2 1024 16) (x3 : Arr2 16384 4096) (x4 : Arr1 4096)
    (r n : Fin 4096) :
    val_main_v19 (F := Ideal) x0 x1 x2 x3 x4 (ix2 r n) = hidden x0 x1 x2 x3 x4 r n := by
  rw [val_main_v19_apply, val_main_v18_apply, val_main_cst_0_apply, val_main_v17_apply, val_main_v16_apply,
    val_main_cst_apply, val_main_v15_apply, val_main_v14_apply, val_main_v13_apply, val_main_v10_apply,
    val_main_v12_apply, val_main_v11_apply]
  have el : ∀ K : Fin 16384, lidx_main_v10 (ix2 r n) K = ix2 r K := fun K =>
    funext fun a => Fin.ext (by match a with | ⟨0, _⟩ => rfl | ⟨1, _⟩ => rfl)
  have er : ∀ K : Fin 16384, ridx_main_v10 (ix2 r n) K = ix2 K n := fun K =>
    funext fun a => Fin.ext (by match a with | ⟨0, _⟩ => rfl | ⟨1, _⟩ => rfl)
  have eb : idx_main_v11 (idx_main_v12 (ix2 r n)) = ix1 n :=
    funext fun a => Fin.ext (by match a with | ⟨0, _⟩ => rfl)
  simp only [el, er, eb, feats_apply]
  rw [flat_pass (fun i b => feat x0 x1 x2 r i b) (fun K => x3 (ix2 K n))]
  simp only [Ideal.ofBits_def, Ideal.hostDivf_def, Ideal.addf_def, Ideal.hostUnary_exp_def, Ideal.hostNegf_def,
    Ideal.negf_def, ofBits_one]
  rfl

/-- The reference's result is the specification's array. -/
theorem result_eq (x0 : Arr2 4096 1024) (x1 x2 : Arr2 1024 16) (x3 : Arr2 16384 4096) (x4 : Arr1 4096)
    (x5 : Arr2 4096 1000) (x6 : Arr1 1000) :
    val_main_v23 (F := Ideal) x0 x1 x2 x3 x4 x5 x6 = logits x0 x1 x2 x3 x4 x5 x6 := by
  funext j
  obtain ⟨r, o, rfl⟩ : ∃ (r : Fin 4096) (o : Fin 1000), j = ix2 r o := ⟨j 0, j 1, eq_ix2 j⟩
  rw [logits_apply, val_main_v23_apply, val_main_v20_apply, val_main_v22_apply, val_main_v21_apply]
  have el : ∀ k : Fin 4096, lidx_main_v20 (ix2 r o) k = ix2 r k := fun k =>
    funext fun a => Fin.ext (by match a with | ⟨0, _⟩ => rfl | ⟨1, _⟩ => rfl)
  have er : ∀ k : Fin 4096, ridx_main_v20 (ix2 r o) k = ix2 k o := fun k =>
    funext fun a => Fin.ext (by match a with | ⟨0, _⟩ => rfl | ⟨1, _⟩ => rfl)
  have eb : idx_main_v21 (idx_main_v22 (ix2 r o)) = ix1 o :=
    funext fun a => Fin.ext (by match a with | ⟨0, _⟩ => rfl)
  simp only [el, er, eb, hidden_apply]
  rfl

end Cert.ReferenceIdeal.RefValue

end
-- ==== Proof.AllBuffers.lean ====
/-
  The whole program's run with every buffer named at the end.

  The program is three segments: a stretch of seven layout operations on the host, the first kernel's region and the
  second kernel's region.  The contents of the core's unscoped buffers at the three boundaries are a fold: after the
  host stretch, the launch memory with the seven results written; after a region, its arrays at what its
  write-backs leave and every other buffer untouched.  The run's launch theorem takes the thread state at each
  boundary ("every unscoped buffer held at the boundary's contents"), the making of the first one from what the
  launch deals, and the reading of the last one against the final memory.  Read for EVERY unscoped buffer, that last
  step says the final memory holds the last boundary's contents, for the result buffer as for the arguments.
-/
import proofs.«131428_j53283364274889_2_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread state the first segment starts from: every unscoped buffer at the launch memory, the generator register
    and nothing owed riding along. -/
abbrev T₀ (c : Dev nD) : sProp 𝕄 :=
  iprop(StableHlo.held (c : Thread nD τ) (Pipeline.ucRefs τ sig) (W0 m ρ c) ∗ R c)

/-- The launch's ghost element is the pipelines' own, and no core needs anything besides. -/
theorem launch_tokens :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by
    rw [BI.bigSep_emp_const])
  iempintro

/-- The first thread state, core by core, from what the launch deals: the unscoped buffers at the launch memory are
    the buffers held at the first boundary's contents; the generator register and the empty debt ride along. -/
theorem first_state :
    iprop((bigSep Finset.univ fun c : Dev nD => iprop(unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (iprop(emp) : sProp 𝕄))) ∗ levAts L lv)
      ⊢ |={Set.univ}=> bigSep Finset.univ (T₀ m ρ) := by
  refine Pipeline.initEach L lv fun c => ?_
  rw [show unscopedBufs c (fun b => m ((c : Thread nD τ).loc b))
      = StableHlo.held (c : Thread nD τ) (Pipeline.ucRefs τ sig) (W0 m ρ c) from Pipeline.unscopedBufs_held c (W0 m ρ c)]
  iintro ⟨⟨Hh, -, HO, -, Hp, -⟩, -⟩
  imodintro
  isplitl [Hh]; · iexact Hh
  isplitl [Hp]; · iexists _; iexact Hp
  iexists ∅; iexact HO

/-- The last thread state read against a final state: every unscoped buffer of the final memory holds the last
    boundary's contents. -/
theorem last_state (c : Dev nD) (s' : Phys nD τ sig (Elt F)) :
    iprop(Tₙ m ρ c ∗ SI s')
      ⊢ |={Set.univ}=> iprop(⌜∀ b ∈ Pipeline.ucRefs τ sig, s'.mem.mem (((c : Thread nD τ)).1, b) = W3 m ρ c b⌝ ∗ SI s') := by
  iintro ⟨⟨Hh, -⟩, HSI⟩
  unfold StableHlo.held
  imodintro
  iapply (pointsTo_read_all (Pipeline.ucRefs τ sig) (fun b => (((c : Thread nD τ)).1, b)) (W3 m ρ c) s')
  isplitl [Hh] <;> iassumption

set_option backward.isDefEq.respectTransparency.types false in
/-- EVERY UNSCOPED BUFFER AFTER THE RUN: from any memory with zero counters every weakly fair execution of the program
    terminates without a fault, and the final memory holds, at every unscoped buffer of every core, the contents of the
    last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_tokens)
    (T₀ := T₀ m ρ) (Tₙ := Tₙ m ρ)
    (hch := ⟨fun _ => .rfl, fun _ => .rfl, fun _ => .rfl, fun _ => .rfl⟩)
    (hinit := first_state m ρ)
    (QY := fun c s => ∀ b ∈ Pipeline.ucRefs τ sig, s.mem (((c : Thread nD τ)).1, b) = W3 m ρ c b)
    (hfin := last_state m ρ)
    (hQ := fun s h c => h c)

end Cert.KernelIdeal.Whole

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.BasisBlock.lean ====
/-
  One block of the hidden layer, entry by entry.

  The block of 256 rows and 128 hidden units is computed from the 256 x 1024 block of inputs, the sixteen rows of
  centres and of scales (row b holds c(i,b), s(i,b) for every input coordinate i) and the 1024 x 16 x 128 slab of
  weights (entry (i,b,n) is the weight of feature (i,b) into hidden unit n).  For each basis function b the features
  tanh((x(p,i) - c(b,i)) * s(b,i)) are formed for the whole block, and contracted over i with the slice (.,b,.) of
  the weights by a matrix product into a zero accumulator; the sixteen products are added one after the other
  onto a zero block, the bias row is added to every row, and the logistic function is applied.  Read at (p,q)
  this is logistic((sum over b of the sum over i of feature * weight) + bias(q)).
-/
import proofs.«131428_j53283364274889_2_alg».proof.Proof.Gen.KernelIdeal.Frame
import proofs.«131428_j53283364274889_2_alg».proof.Proof.LibPlainMatmul
import proofs.«131428_j53283364274889_2_alg».proof.Proof.LibRowLayout
import proofs.«131428_j53283364274889_2_alg».proof.Proof.Spec
import Idealize.ShloMosaic.Lib.Pipeline.Value
import Idealize.ShloMosaic.Lib.ValueIdx
import Idealize.ShloMosaic.PureOps.Ideal.Laws

noncomputable section

namespace Cert.KernelIdeal.BasisBlock

open Cert.KernelIdeal Cert.KernelIdeal.Gen Idealize.ShloMosaic Idealize.ShloMosaic.ValueIdx

theorem zero2 : (![0, 0] : Fin 2 → Nat) = fun _ => 0 := funext fun a => by fin_cases a <;> rfl

/-- The features of one basis function for the whole block, from the block of inputs and that function's row of
    centres and row of scales (each a 1 x 1024 row, flattened, stood up again and copied down the 256 rows). -/
def featBlk (x0 : Vec Ideal S256x1024 .f32) (cRow sRow : Vec Ideal S1x1024 .f32) : FVec Ideal S256x1024 .bf16 :=
  truncf .bf16 (tanh (mulf
    (subf x0 (broadcastTo S256x1024 (shapeCast S1x1024 (shapeCast S1024 cRow shapeCasts_S1x1024_S1024) shapeCasts_S1024_S1x1024) broadcasts_S1x1024_S256x1024))
    (broadcastTo S256x1024 (shapeCast S1x1024 (shapeCast S1024 sRow shapeCasts_S1x1024_S1024) shapeCasts_S1024_S1x1024) broadcasts_S1x1024_S256x1024))) bitsLt_bf16_f32

theorem featBlk_apply (x0 : Vec Ideal S256x1024 .f32) (cRow sRow : Vec Ideal S1x1024 .f32) (p : Fin 256) (i : Fin 1024) :
    featBlk x0 cRow sRow (ix2 p i)
      = Ideal.tanh ((x0 (ix2 p i) - cRow (ix2 (0 : Fin 1) i)) * sRow (ix2 (0 : Fin 1) i)) := by
  unfold featBlk
  rw [shapeCast_shapeCast, shapeCast_shapeCast]
  show Ideal.tanh ((x0 (ix2 p i) - broadcastTo S256x1024 cRow broadcasts_S1x1024_S256x1024 (ix2 p i))
    * broadcastTo S256x1024 sRow broadcasts_S1x1024_S256x1024 (ix2 p i)) = _
  rw [RowLayout.rowBroadcast_apply cRow _ p i, RowLayout.rowBroadcast_apply sRow _ p i]

/-- One basis function's product: its features times its slice of the weights, into the zero block. -/
def termBlk (x0 : Vec Ideal S256x1024 .f32) (cRow sRow : Vec Ideal S1x1024 .f32) (w : Vec Ideal S1024x1x128 .bf16) :
    FVec Ideal S256x128 .f32 :=
  matmul dot_S256x1024_S1024x128_S256x128_1_0_0_1_n_n none (featBlk x0 cRow sRow)
    (shapeCast S1024x128 w shapeCasts_S1024x1x128_S1024x128 : FVec Ideal S1024x128 .bf16) (constant S256x128 .f32 0x00000000#32)

/-- A 1024 x 1 x 128 slice with its unit axis dropped, at (i,q), is the slice at (i,0,q). -/
theorem slice_apply (w : Vec Ideal S1024x1x128 .bf16) (i : Fin 1024) (q : Fin 128) :
    shapeCast S1024x128 w shapeCasts_S1024x1x128_S1024x128 (ix2 i q) = w (ix3 i (0 : Fin 1) q) := by
  refine shapeCast_apply w shapeCasts_S1024x1x128_S1024x128 (ix2 i q) (ix3 i (0 : Fin 1) q) ?_
  rewrite [Shape.rowMajor_val_three, Shape.rowMajor_val_two]
  show (i.val * 1 + 0) * 128 + q.val = i.val * 128 + q.val
  omega

theorem termBlk_apply (x0 : Vec Ideal S256x1024 .f32) (cRow sRow : Vec Ideal S1x1024 .f32) (w : Vec Ideal S1024x1x128 .bf16)
    (p : Fin 256) (q : Fin 128) :
    termBlk x0 cRow sRow w (ix2 p q)
      = ∑ i : Fin 1024, Ideal.tanh ((x0 (ix2 p i) - cRow (ix2 (0 : Fin 1) i)) * sRow (ix2 (0 : Fin 1) i)) * w (ix3 i (0 : Fin 1) q) := by
  unfold termBlk
  refine (Cert.PointConv.plainMatmul_zero_apply (R := 256) (n := 1024) (k := 128)
    dot_S256x1024_S1024x128_S256x128_1_0_0_1_n_n_wf none (featBlk x0 cRow sRow)
    (shapeCast S1024x128 w shapeCasts_S1024x1x128_S1024x128 : FVec Ideal S1024x128 .bf16) p q).trans ?_
  refine Finset.sum_congr rfl fun i _ => ?_
  rw [featBlk_apply, slice_apply]

/-- The share of basis function b at (p,q) of the block, from the block arrays. -/
def shareBlk (x0 : Vec Ideal S256x1024 .f32) (x1 x2 : Vec Ideal S16x1024 .f32) (x3 : Vec Ideal S1024x16x128 .bf16)
    (p : Fin 256) (q : Fin 128) (b : Fin 16) : EReal :=
  ∑ i : Fin 1024, Ideal.tanh ((x0 (ix2 p i) - x1 (ix2 b i)) * x2 (ix2 b i)) * x3 (ix3 i b q)

/-- A product formed from rows and a slice that are row b and slice b of the block arrays is share b. -/
theorem rowShare (x0 : Vec Ideal S256x1024 .f32) (x1 x2 : Vec Ideal S16x1024 .f32) (x3 : Vec Ideal S1024x16x128 .bf16)
    (b : Fin 16) (cRow sRow : Vec Ideal S1x1024 .f32) (w : Vec Ideal S1024x1x128 .bf16)
    (hc : ∀ i : Fin 1024, cRow (ix2 (0 : Fin 1) i) = x1 (ix2 b i))
    (hs : ∀ i : Fin 1024, sRow (ix2 (0 : Fin 1) i) = x2 (ix2 b i))
    (hw : ∀ (i : Fin 1024) (q : Fin 128), w (ix3 i (0 : Fin 1) q) = x3 (ix3 i b q)) (p : Fin 256) (q : Fin 128) :
    termBlk x0 cRow sRow w (ix2 p q) = shareBlk x0 x1 x2 x3 p q b := by
  rw [termBlk_apply]
  unfold shareBlk
  refine Finset.sum_congr rfl fun i _ => ?_
  rw [hc, hs, hw]

/-- Row b of a 16 x 1024 array, loaded as a 1 x 1024 row. -/
theorem ld_row (x : Vec Ideal S16x1024 .f32) (b : Fin 16)
    (inb : ∀ a, (![b.val, 0] : Fin 2 → Nat) a + S1x1024.size a ≤ S16x1024.size a) (i : Fin 1024) :
    View.ld x (Rect.unit (s := S16x1024) ![b.val, 0] S1x1024.size inb) (ix2 (0 : Fin 1) i) = x (ix2 b i) := by
  show x _ = x _
  refine congrArg x (funext fun a => Fin.ext ?_)
  match a with
  | ⟨0, _⟩ => show b.val + 1 * 0 = b.val; omega
  | ⟨1, _⟩ => show 0 + 1 * i.val = i.val; omega

/-- Slice (., b, .) of the weight slab, loaded as 1024 x 1 x 128. -/
theorem ld_slab (x : Vec Ideal S1024x16x128 .bf16) (b : Fin 16)
    (inb : ∀ a, (![0, b.val, 0] : Fin 3 → Nat) a + S1024x1x128.size a ≤ S1024x16x128.size a) (i : Fin 1024) (q : Fin 128) :
    View.ld x (Rect.unit (s := S1024x16x128) ![0, b.val, 0] S1024x1x128.size inb) (ix3 i (0 : Fin 1) q) = x (ix3 i b q) := by
  show x _ = x _
  refine congrArg x (funext fun a => Fin.ext ?_)
  match a with
  | ⟨0, _⟩ => show 0 + 1 * i.val = i.val; omega
  | ⟨1, _⟩ => show b.val + 1 * 0 = b.val; omega
  | ⟨2, _⟩ => show 0 + 1 * q.val = q.val; omega

/-- The sixteen products added one after the other onto the zero block. -/
def accBlk (x0 : Vec Ideal S256x1024 .f32) (x1 x2 : Vec Ideal S16x1024 .f32) (x3 : Vec Ideal S1024x16x128 .bf16) :
    FVec Ideal S256x128 .f32 :=
  (addf (addf (addf (addf (addf (addf (addf (addf (addf (addf (addf (addf (addf (addf (addf (addf (broadcast S256x128 (Scalar.ofBits (F := Ideal) .f32 0x00000000#32) : FVec Ideal S256x128 .f32)
      (termBlk x0 (View.ld x1 r0_1) (View.ld x2 r0_1) (View.ld x3 r0_2)))
      (termBlk x0 (View.ld x1 r0_3) (View.ld x2 r0_3) (View.ld x3 r0_4)))
      (termBlk x0 (View.ld x1 r0_5) (View.ld x2 r0_5) (View.ld x3 r0_6)))
      (termBlk x0 (View.ld x1 r0_7) (View.ld x2 r0_7) (View.ld x3 r0_8)))
      (termBlk x0 (View.ld x1 r0_9) (View.ld x2 r0_9) (View.ld x3 r0_10)))
      (termBlk x0 (View.ld x1 r0_11) (View.ld x2 r0_11) (View.ld x3 r0_12)))
      (termBlk x0 (View.ld x1 r0_13) (View.ld x2 r0_13) (View.ld x3 r0_14)))
      (termBlk x0 (View.ld x1 r0_15) (View.ld x2 r0_15) (View.ld x3 r0_16)))
      (termBlk x0 (View.ld x1 r0_17) (View.ld x2 r0_17) (View.ld x3 r0_18)))
      (termBlk x0 (View.ld x1 r0_19) (View.ld x2 r0_19) (View.ld x3 r0_20)))
      (termBlk x0 (View.ld x1 r0_21) (View.ld x2 r0_21) (View.ld x3 r0_22)))
      (termBlk x0 (View.ld x1 r0_23) (View.ld x2 r0_23) (View.ld x3 r0_24)))
      (termBlk x0 (View.ld x1 r0_25) (View.ld x2 r0_25) (View.ld x3 r0_26)))
      (termBlk x0 (View.ld x1 r0_27) (View.ld x2 r0_27) (View.ld x3 r0_28)))
      (termBlk x0 (View.ld x1 r0_29) (View.ld x2 r0_29) (View.ld x3 r0_30)))
      (termBlk x0 (View.ld x1 r0_31) (View.ld x2 r0_31) (View.ld x3 r0_32)))

/-- What the body leaves in the output block: the logistic function of the accumulated products plus the bias row. -/
theorem out_eq (x0 : Vec Ideal S256x1024 .f32) (x1 x2 : Vec Ideal S16x1024 .f32) (x3 : Vec Ideal S1024x16x128 .bf16)
    (x4 : Vec Ideal S1x128 .f32) :
    out0_5 (F := Ideal) x0 x1 x2 x3 x4
      = truncf .bf16 (logistic (addf (accBlk x0 x1 x2 x3)
          (broadcastTo S256x128 (shapeCast S1x128 x4 shapeCasts_S1x128_S1x128) broadcasts_S1x128_S256x128))) bitsLt_bf16_f32 := by
  unfold out0_5
  rw [View.canon_unit_zero zero2, View.ld_unit_zero (S := S256x1024) zero2, View.ld_unit_zero (S := S1x128) zero2]
  rfl

theorem accBlk_apply (x0 : Vec Ideal S256x1024 .f32) (x1 x2 : Vec Ideal S16x1024 .f32) (x3 : Vec Ideal S1024x16x128 .bf16)
    (p : Fin 256) (q : Fin 128) :
    accBlk x0 x1 x2 x3 (ix2 p q) = ∑ b : Fin 16, shareBlk x0 x1 x2 x3 p q b := by
  unfold accBlk
  show (broadcast S256x128 (Scalar.ofBits (F := Ideal) .f32 0x00000000#32) : FVec Ideal S256x128 .f32) (ix2 p q)
      + (termBlk x0 (View.ld x1 r0_1) (View.ld x2 r0_1) (View.ld x3 r0_2)) (ix2 p q)
      + (termBlk x0 (View.ld x1 r0_3) (View.ld x2 r0_3) (View.ld x3 r0_4)) (ix2 p q)
      + (termBlk x0 (View.ld x1 r0_5) (View.ld x2 r0_5) (View.ld x3 r0_6)) (ix2 p q)
      + (termBlk x0 (View.ld x1 r0_7) (View.ld x2 r0_7) (View.ld x3 r0_8)) (ix2 p q)
      + (termBlk x0 (View.ld x1 r0_9) (View.ld x2 r0_9) (View.ld x3 r0_10)) (ix2 p q)
      + (termBlk x0 (View.ld x1 r0_11) (View.ld x2 r0_11) (View.ld x3 r0_12)) (ix2 p q)
      + (termBlk x0 (View.ld x1 r0_13) (View.ld x2 r0_13) (View.ld x3 r0_14)) (ix2 p q)
      + (termBlk x0 (View.ld x1 r0_15) (View.ld x2 r0_15) (View.ld x3 r0_16)) (ix2 p q)
      + (termBlk x0 (View.ld x1 r0_17) (View.ld x2 r0_17) (View.ld x3 r0_18)) (ix2 p q)
      + (termBlk x0 (View.ld x1 r0_19) (View.ld x2 r0_19) (View.ld x3 r0_20)) (ix2 p q)
      + (termBlk x0 (View.ld x1 r0_21) (View.ld x2 r0_21) (View.ld x3 r0_22)) (ix2 p q)
      + (termBlk x0 (View.ld x1 r0_23) (View.ld x2 r0_23) (View.ld x3 r0_24)) (ix2 p q)
      + (termBlk x0 (View.ld x1 r0_25) (View.ld x2 r0_25) (View.ld x3 r0_26)) (ix2 p q)
      + (termBlk x0 (View.ld x1 r0_27) (View.ld x2 r0_27) (View.ld x3 r0_28)) (ix2 p q)
      + (termBlk x0 (View.ld x1 r0_29) (View.ld x2 r0_29) (View.ld x3 r0_30)) (ix2 p q)
      + (termBlk x0 (View.ld x1 r0_31) (View.ld x2 r0_31) (View.ld x3 r0_32)) (ix2 p q) = _
  rw [
    rowShare x0 x1 x2 x3 0 (View.ld x1 r0_1) (View.ld x2 r0_1) (View.ld x3 r0_2) (ld_row x1 0 _) (ld_row x2 0 _) (ld_slab x3 0 _) p q,
    rowShare x0 x1 x2 x3 1 (View.ld x1 r0_3) (View.ld x2 r0_3) (View.ld x3 r0_4) (ld_row x1 1 _) (ld_row x2 1 _) (ld_slab x3 1 _) p q,
    rowShare x0 x1 x2 x3 2 (View.ld x1 r0_5) (View.ld x2 r0_5) (View.ld x3 r0_6) (ld_row x1 2 _) (ld_row x2 2 _) (ld_slab x3 2 _) p q,
    rowShare x0 x1 x2 x3 3 (View.ld x1 r0_7) (View.ld x2 r0_7) (View.ld x3 r0_8) (ld_row x1 3 _) (ld_row x2 3 _) (ld_slab x3 3 _) p q,
    rowShare x0 x1 x2 x3 4 (View.ld x1 r0_9) (View.ld x2 r0_9) (View.ld x3 r0_10) (ld_row x1 4 _) (ld_row x2 4 _) (ld_slab x3 4 _) p q,
    rowShare x0 x1 x2 x3 5 (View.ld x1 r0_11) (View.ld x2 r0_11) (View.ld x3 r0_12) (ld_row x1 5 _) (ld_row x2 5 _) (ld_slab x3 5 _) p q,
    rowShare x0 x1 x2 x3 6 (View.ld x1 r0_13) (View.ld x2 r0_13) (View.ld x3 r0_14) (ld_row x1 6 _) (ld_row x2 6 _) (ld_slab x3 6 _) p q,
    rowShare x0 x1 x2 x3 7 (View.ld x1 r0_15) (View.ld x2 r0_15) (View.ld x3 r0_16) (ld_row x1 7 _) (ld_row x2 7 _) (ld_slab x3 7 _) p q,
    rowShare x0 x1 x2 x3 8 (View.ld x1 r0_17) (View.ld x2 r0_17) (View.ld x3 r0_18) (ld_row x1 8 _) (ld_row x2 8 _) (ld_slab x3 8 _) p q,
    rowShare x0 x1 x2 x3 9 (View.ld x1 r0_19) (View.ld x2 r0_19) (View.ld x3 r0_20) (ld_row x1 9 _) (ld_row x2 9 _) (ld_slab x3 9 _) p q,
    rowShare x0 x1 x2 x3 10 (View.ld x1 r0_21) (View.ld x2 r0_21) (View.ld x3 r0_22) (ld_row x1 10 _) (ld_row x2 10 _) (ld_slab x3 10 _) p q,
    rowShare x0 x1 x2 x3 11 (View.ld x1 r0_23) (View.ld x2 r0_23) (View.ld x3 r0_24) (ld_row x1 11 _) (ld_row x2 11 _) (ld_slab x3 11 _) p q,
    rowShare x0 x1 x2 x3 12 (View.ld x1 r0_25) (View.ld x2 r0_25) (View.ld x3 r0_26) (ld_row x1 12 _) (ld_row x2 12 _) (ld_slab x3 12 _) p q,
    rowShare x0 x1 x2 x3 13 (View.ld x1 r0_27) (View.ld x2 r0_27) (View.ld x3 r0_28) (ld_row x1 13 _) (ld_row x2 13 _) (ld_slab x3 13 _) p q,
    rowShare x0 x1 x2 x3 14 (View.ld x1 r0_29) (View.ld x2 r0_29) (View.ld x3 r0_30) (ld_row x1 14 _) (ld_row x2 14 _) (ld_slab x3 14 _) p q,
    rowShare x0 x1 x2 x3 15 (View.ld x1 r0_31) (View.ld x2 r0_31) (View.ld x3 r0_32) (ld_row x1 15 _) (ld_row x2 15 _) (ld_slab x3 15 _) p q]
  rw [← Cert.BasisNet.sum_sixteen]
  show Ideal.ofBits .f32 0x00000000#32 + _ + _ + _ + _ + _ + _ + _ + _ + _ + _ + _ + _ + _ + _ + _ + _ = _
  rw [Ideal.ofBits_zero_f32]

/-- THE BLOCK at (p,q): logistic of the sixteen shares plus the bias. -/
theorem out_apply (x0 : Vec Ideal S256x1024 .f32) (x1 x2 : Vec Ideal S16x1024 .f32) (x3 : Vec Ideal S1024x16x128 .bf16)
    (x4 : Vec Ideal S1x128 .f32) (p : Fin 256) (q : Fin 128) :
    out0_5 (F := Ideal) x0 x1 x2 x3 x4 (ix2 p q)
      = Ideal.logistic ((∑ b : Fin 16, shareBlk x0 x1 x2 x3 p q b) + x4 (ix2 (0 : Fin 1) q)) := by
  rw [out_eq]
  show Ideal.logistic (accBlk x0 x1 x2 x3 (ix2 p q)
    + broadcastTo S256x128 (shapeCast S1x128 x4 shapeCasts_S1x128_S1x128) broadcasts_S1x128_S256x128 (ix2 p q)) = _
  rw [accBlk_apply, shapeCast_self, RowLayout.rowBroadcast_apply x4 _ p q]

end Cert.KernelIdeal.BasisBlock

end
-- ==== Proof.HiddenArray.lean ====
/-
  The hidden layer as one array: what the first kernel's write-backs leave.

  The grid of the first kernel has 32 x 16 points; point t works on the block of rows 256*(t % 16) ... +255 and of
  hidden units 128*(t / 16) ... +127.  It reads the rows' inputs, all sixteen rows of centres and scales, the slab of
  weights into its 128 hidden units and the matching stretch of the bias row, and writes the block of the hidden
  layer back.  Every entry (r,n) of the 4096 x 4096 array lies in the block of point (n / 128) * 16 + r / 256, and
  every point writes its block of one and the same function of the whole arrays, so after the last point the array
  holds that function.
-/
import proofs.«131428_j53283364274889_2_alg».proof.Proof.Gen.KernelIdeal.Frame
import proofs.«131428_j53283364274889_2_alg».proof.Proof.BasisBlock
import Idealize.ShloMosaic.Lib.Pipeline.Value
import Idealize.ShloMosaic.Lib.ValueIdx

noncomputable section

namespace Cert.KernelIdeal.HiddenArray

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.BasisBlock

/-- Hidden unit n of row r from the arrays as the kernel is given them: centres and scales with the basis index
    first, the weights as a 1024 x 16 x 4096 slab, the bias as a row. -/
def hidAt (a0 : Vec Ideal S4096x1024 .f32) (a1 a2 : Vec Ideal S16x1024 .f32) (a3 : Vec Ideal S1024x16x4096 .bf16)
    (a4 : Vec Ideal S1x4096 .f32) (r n : Fin 4096) : EReal :=
  Ideal.logistic ((∑ b : Fin 16, ∑ i : Fin 1024,
      Ideal.tanh ((a0 (ix2 r i) - a1 (ix2 b i)) * a2 (ix2 b i)) * a3 (ix3 i b n)) + a4 (ix2 (0 : Fin 1) n))

/-- The hidden layer as an array. -/
def hid (a0 : Vec Ideal S4096x1024 .f32) (a1 a2 : Vec Ideal S16x1024 .f32) (a3 : Vec Ideal S1024x16x4096 .bf16)
    (a4 : Vec Ideal S1x4096 .f32) : Vec Ideal S4096x4096 .bf16 :=
  fun k => hidAt a0 a1 a2 a3 a4 ⟨(k 0).val, (k 0).isLt⟩ ⟨(k 1).val, (k 1).isLt⟩

/-- An entry of the output block, when the block arrays are the whole arrays read at row r and hidden unit n. -/
theorem block_entry (a0 : Vec Ideal S4096x1024 .f32) (a1 a2 : Vec Ideal S16x1024 .f32) (a3 : Vec Ideal S1024x16x4096 .bf16)
    (a4 : Vec Ideal S1x4096 .f32) (x0 : Vec Ideal S256x1024 .f32) (x1 x2 : Vec Ideal S16x1024 .f32)
    (x3 : Vec Ideal S1024x16x128 .bf16) (x4 : Vec Ideal S1x128 .f32) (p : Fin 256) (q : Fin 128) (r n : Fin 4096)
    (h0 : ∀ i : Fin 1024, x0 (ix2 p i) = a0 (ix2 r i))
    (h1 : ∀ (b : Fin 16) (i : Fin 1024), x1 (ix2 b i) = a1 (ix2 b i))
    (h2 : ∀ (b : Fin 16) (i : Fin 1024), x2 (ix2 b i) = a2 (ix2 b i))
    (h3 : ∀ (i : Fin 1024) (b : Fin 16), x3 (ix3 i b q) = a3 (ix3 i b n))
    (h4 : x4 (ix2 (0 : Fin 1) q) = a4 (ix2 (0 : Fin 1) n)) :
    out0_5 (F := Ideal) x0 x1 x2 x3 x4 (ix2 p q) = hidAt a0 a1 a2 a3 a4 r n := by
  rw [out_apply, h4]
  unfold hidAt shareBlk
  refine congrArg (fun s => Ideal.logistic (s + a4 (ix2 (0 : Fin 1) n))) ?_
  refine Finset.sum_congr rfl fun b _ => Finset.sum_congr rfl fun i _ => ?_
  rw [h0, h1, h2, h3]

section Region
variable (V : (c : Dev nD) → (b : Ref sig .tc) → Buf (Elt Ideal) ((c : Thread nD τ).loc b))

/-- Where each window's block sits at point t, decided over the grid. -/
theorem idx_facts : ∀ t : Fin cfg0.N,
    win0_5.index t (0 : Fin 2) = t.val % 16 ∧ win0_5.index t (1 : Fin 2) = t.val / 16
    ∧ win0_0.index t (0 : Fin 2) = t.val % 16 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = t.val / 16
    ∧ win0_4.index t (0 : Fin 2) = 0 ∧ win0_4.index t (1 : Fin 2) = t.val / 16 :=
  (by decide +kernel : ∀ t : Fin grid0.N, _)

/-- The block of inputs at point t: rows 256 * (t % 16) + p. -/
theorem inputs_apply (c : Dev nD) (t : Fin cfg0.N) (x : S256x1024.Idx) (k : S4096x1024.Idx)
    (hk0 : (k 0).val = t.val % 16 * 256 + (x 0).val) (hk1 : (k 1).val = (x 1).val) :
    (iblk0 V c 0 t : Vec Ideal S256x1024 .f32) x = (V c main_arg0 : S4096x1024.Idx → Elt Ideal .f32) k := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 256 + 1 * (x 0).val = (k 0).val; rw [e0, hk0]; omega
  | ⟨1, _⟩ => show win0_0.index t (1 : Fin 2) * 1024 + 1 * (x 1).val = (k 1).val; rw [e1, hk1]; omega

/-- The centres' block is the whole array of centres. -/
theorem centres_apply (c : Dev nD) (t : Fin cfg0.N) (x : S16x1024.Idx) :
    (iblk0 V c 1 t : Vec Ideal S16x1024 .f32) x = (V c main_v0 : S16x1024.Idx → Elt Ideal .f32) x := by
  obtain ⟨-, -, -, -, e0, e1, -⟩ := idx_facts t
  unfold iblk0
  rw [View.read_apply]
  show V c main_v0 _ = V c main_v0 _
  refine congrArg (V c main_v0) (funext fun a => Fin.ext ?_)
  match a with
  | ⟨0, _⟩ => show win0_1.index t (0 : Fin 2) * 16 + 1 * (x 0).val = (x 0).val; rw [e0]; omega
  | ⟨1, _⟩ => show win0_1.index t (1 : Fin 2) * 1024 + 1 * (x 1).val = (x 1).val; rw [e1]; omega

/-- The scales' block is the whole array of scales. -/
theorem scales_apply (c : Dev nD) (t : Fin cfg0.N) (x : S16x1024.Idx) :
    (iblk0 V c 2 t : Vec Ideal S16x1024 .f32) x = (V c main_v1 : S16x1024.Idx → Elt Ideal .f32) x := by
  obtain ⟨-, -, -, -, -, -, e0, e1, -⟩ := idx_facts t
  unfold iblk0
  rw [View.read_apply]
  show V c main_v1 _ = V c main_v1 _
  refine congrArg (V c main_v1) (funext fun a => Fin.ext ?_)
  match a with
  | ⟨0, _⟩ => show win0_2.index t (0 : Fin 2) * 16 + 1 * (x 0).val = (x 0).val; rw [e0]; omega
  | ⟨1, _⟩ => show win0_2.index t (1 : Fin 2) * 1024 + 1 * (x 1).val = (x 1).val; rw [e1]; omega

/-- The slab of weights at point t: hidden units 128 * (t / 16) + q. -/
theorem slab_apply (c : Dev nD) (t : Fin cfg0.N) (x : S1024x16x128.Idx) (k : S1024x16x4096.Idx)
    (hk0 : (k 0).val = (x 0).val) (hk1 : (k 1).val = (x 1).val) (hk2 : (k 2).val = t.val / 16 * 128 + (x 2).val) :
    (iblk0 V c 3 t : Vec Ideal S1024x16x128 .bf16) x = (V c main_v3 : S1024x16x4096.Idx → Elt Ideal .bf16) k := by
  obtain ⟨-, -, -, -, -, -, -, -, e0, e1, e2, -⟩ := idx_facts t
  unfold iblk0
  rw [View.read_apply]
  show V c main_v3 _ = V c main_v3 _
  refine congrArg (V c main_v3) (funext fun a => Fin.ext ?_)
  match a with
  | ⟨0, _⟩ => show win0_3.index t (0 : Fin 3) * 1024 + 1 * (x 0).val = (k 0).val; rw [e0, hk0]; omega
  | ⟨1, _⟩ => show win0_3.index t (1 : Fin 3) * 16 + 1 * (x 1).val = (k 1).val; rw [e1, hk1]; omega
  | ⟨2, _⟩ => show win0_3.index t (2 : Fin 3) * 128 + 1 * (x 2).val = (k 2).val; rw [e2, hk2]; omega

/-- The stretch of the bias row at point t. -/
theorem bias_apply (c : Dev nD) (t : Fin cfg0.N) (x : S1x128.Idx) (k : S1x4096.Idx)
    (hk0 : (k 0).val = (x 0).val) (hk1 : (k 1).val = t.val / 16 * 128 + (x 1).val) :
    (iblk0 V c 4 t : Vec Ideal S1x128 .f32) x = (V c main_v4 : S1x4096.Idx → Elt Ideal .f32) k := by
  obtain ⟨-, -, -, -, -, -, -, -, -, -, -, e0, e1⟩ := idx_facts t
  unfold iblk0
  rw [View.read_apply]
  show V c main_v4 _ = V c main_v4 _
  refine congrArg (V c main_v4) (funext fun a => Fin.ext ?_)
  match a with
  | ⟨0, _⟩ => show win0_4.index t (0 : Fin 2) * 1 + 1 * (x 0).val = (k 0).val; rw [e0, hk0]; omega
  | ⟨1, _⟩ => show win0_4.index t (1 : Fin 2) * 128 + 1 * (x 1).val = (k 1).val; rw [e1, hk1]; omega

/-- What point t leaves at entry y of its output block is the hidden layer at the entry's place in the array. -/
theorem point_entry (c : Dev nD) (t : Fin cfg0.N) (y : S256x128.Idx) (k : S4096x4096.Idx)
    (hk0 : (k 0).val = t.val % 16 * 256 + (y 0).val) (hk1 : (k 1).val = t.val / 16 * 128 + (y 1).val) :
    out0_5 (F := Ideal) (iblk0 V c 0 t) (iblk0 V c 1 t) (iblk0 V c 2 t) (iblk0 V c 3 t) (iblk0 V c 4 t) y
      = hid (V c main_arg0) (V c main_v0) (V c main_v1) (V c main_v3) (V c main_v4) k := by
  obtain ⟨p, q, rfl⟩ : ∃ (p : Fin 256) (q : Fin 128), y = ix2 p q := ⟨y 0, y 1, eq_ix2 y⟩
  unfold hid
  refine block_entry (V c main_arg0) (V c main_v0) (V c main_v1) (V c main_v3) (V c main_v4)
    (iblk0 V c 0 t) (iblk0 V c 1 t) (iblk0 V c 2 t) (iblk0 V c 3 t) (iblk0 V c 4 t) p q
    ⟨(k 0).val, (k 0).isLt⟩ ⟨(k 1).val, (k 1).isLt⟩ ?_ ?_ ?_ ?_ ?_
  · intro i; exact inputs_apply V c t (ix2 p i) _ hk0 rfl
  · intro b i; exact centres_apply V c t (ix2 b i)
  · intro b i; exact scales_apply V c t (ix2 b i)
  · intro i b; exact slab_apply V c t (ix3 i b q) _ rfl rfl hk1
  · exact bias_apply V c t (ix2 (0 : Fin 1) q) _ rfl hk1

/-- WHAT POINT t WRITES BACK is block t of the hidden layer. -/
theorem flushed_eq (c : Dev nD) (t : Fin cfg0.N) :
    (dat0 (F := Ideal) V c).flushed 5 t = ((cfg0.win 5).blk t).view.read (Elt Ideal)
      (hid (V c main_arg0) (V c main_v0) (V c main_v1) (V c main_v3) (V c main_v4)) := by
  show (cfg0.win 5).cut (grid0.coords t) ((dat0 (F := Ideal) V c).after 5 t) = _
  rw [after0_5]
  obtain ⟨e0, e1, -⟩ := idx_facts t
  funext j
  rw [View.read_apply]
  refine point_entry V c t j _ ?_ ?_
  · show win0_5.index t (0 : Fin 2) * 256 + 1 * (j 0).val = _; rw [e0]; omega
  · show win0_5.index t (1 : Fin 2) * 128 + 1 * (j 1).val = _; rw [e1]; omega

/-- An index of the array is in point t's block iff each coordinate is in the block's range. -/
theorem mem_blk (t : Fin cfg0.N) (i : S4096x4096.Idx) :
    i ∈ ((cfg0.win 5).blk t).view.set ↔ ∀ a : Fin 2, win0_5.index t a * S256x128.size a ≤ (i a).val
      ∧ (i a).val < win0_5.index t a * S256x128.size a + S256x128.size a := by
  show i ∈ ((View.whole main_v7).slice (win0_5.rect t)).set ↔ _
  rw [View.set_slice_whole, Rect.mem_set_unit]
  exact Iff.rfl

/-- Every entry of the array is in some point's block. -/
theorem cover (i : S4096x4096.Idx) :
    ∃ t : Fin cfg0.N, (cfg0.win 5).flush t = true ∧ i ∈ ((cfg0.win 5).blk t).view.set := by
  have h0 : (i 0).val < 4096 := (i 0).isLt
  have h1 : (i 1).val < 4096 := (i 1).isLt
  have hN : cfg0.N = 512 := N_0
  have hlt : (i 1).val / 128 * 16 + (i 0).val / 256 < cfg0.N := by rw [hN]; omega
  refine ⟨⟨(i 1).val / 128 * 16 + (i 0).val / 256, hlt⟩, flush0_5 _, ?_⟩
  rw [mem_blk]
  obtain ⟨e0, e1, -⟩ := idx_facts ⟨(i 1).val / 128 * 16 + (i 0).val / 256, hlt⟩
  intro a
  match a with
  | ⟨0, _⟩ =>
    show win0_5.index _ (0 : Fin 2) * 256 ≤ (i 0).val ∧ (i 0).val < win0_5.index _ (0 : Fin 2) * 256 + 256
    rw [e0]
    show ((i 1).val / 128 * 16 + (i 0).val / 256) % 16 * 256 ≤ (i 0).val
      ∧ (i 0).val < ((i 1).val / 128 * 16 + (i 0).val / 256) % 16 * 256 + 256
    omega
  | ⟨1, _⟩ =>
    show win0_5.index _ (1 : Fin 2) * 128 ≤ (i 1).val ∧ (i 1).val < win0_5.index _ (1 : Fin 2) * 128 + 128
    rw [e1]
    show ((i 1).val / 128 * 16 + (i 0).val / 256) / 16 * 128 ≤ (i 1).val
      ∧ (i 1).val < ((i 1).val / 128 * 16 + (i 0).val / 256) / 16 * 128 + 128
    omega

/-- THE ARRAY after the first kernel: the hidden layer, a function of the arrays the kernel was given. -/
theorem final (c : Dev nD) : (dat0 (F := Ideal) V c).arrAt 5 cfg0.N
    = hid (V c main_arg0) (V c main_v0) (V c main_v1) (V c main_v3) (V c main_v4) :=
  (dat0 (F := Ideal) V c).arrAt_eq_of_cover 5 _ (fun t _ => flushed_eq V c t) cover

end Region

end Cert.KernelIdeal.HiddenArray

end
-- ==== Proof.HeadBlock.lean ====
/-
  One block of the output layer, entry by entry.

  A block of 512 rows of the 4096 hidden values is multiplied by the whole 4096 x 1000 weight matrix into a zero
  accumulator and the bias row is added to every row: at (p,q) the sum over k of h(p,k) * W(k,q), plus bias(q).
-/
import proofs.«131428_j53283364274889_2_alg».proof.Proof.Gen.KernelIdeal.Frame
import proofs.«131428_j53283364274889_2_alg».proof.Proof.LibPlainMatmul
import proofs.«131428_j53283364274889_2_alg».proof.Proof.LibRowLayout
import Idealize.ShloMosaic.Lib.Pipeline.Value
import Idealize.ShloMosaic.Lib.ValueIdx
import Idealize.ShloMosaic.PureOps.Ideal.Laws

noncomputable section

namespace Cert.KernelIdeal.HeadBlock

open Cert.KernelIdeal Cert.KernelIdeal.Gen Idealize.ShloMosaic Idealize.ShloMosaic.ValueIdx

theorem zero2 : (![0, 0] : Fin 2 → Nat) = fun _ => 0 := funext fun a => by fin_cases a <;> rfl

/-- THE BLOCK at (p,q): the row of hidden values contracted with column q of the weights, plus the bias. -/
theorem out_apply (x0 : Vec Ideal S512x4096 .bf16) (x1 : Vec Ideal S4096x1000 .bf16) (x2 : Vec Ideal S1x1000 .f32)
    (p : Fin 512) (q : Fin 1000) :
    out1_3 (F := Ideal) x0 x1 x2 (ix2 p q)
      = (∑ k : Fin 4096, x0 (ix2 p k) * x1 (ix2 k q)) + x2 (ix2 (0 : Fin 1) q) := by
  unfold out1_3
  rw [View.canon_unit_zero zero2, View.ld_unit_zero (S := S512x4096) zero2, View.ld_unit_zero (S := S4096x1000) zero2,
    View.ld_unit_zero (S := S1x1000) zero2]
  unfold k1_pay1
  rw [shapeCast_self, shapeCast_self, shapeCast_self]
  exact congrArg₂ (· + ·)
    (Cert.PointConv.plainMatmul_zero_apply (R := 512) (n := 4096) (k := 1000)
      dot_S512x4096_S4096x1000_S512x1000_1_0_0_1_n_n_wf none x0 x1 p q)
    (RowLayout.rowBroadcast_apply x2 broadcasts_S1x1000_S512x1000 p q)

end Cert.KernelIdeal.HeadBlock

end
-- ==== Proof.OutputArray.lean ====
/-
  The output layer as one array: what the second kernel's write-backs leave.

  The second kernel's grid has 8 points; point t works on rows 512*t ... +511.  It reads those rows of the hidden
  layer, the whole second weight matrix and the whole bias row, and writes the rows of the output back.  Every row of
  the 4096 x 1000 output lies in the block of point r / 512, and every point writes its block of one function of
  the whole arrays.
-/
import proofs.«131428_j53283364274889_2_alg».proof.Proof.Gen.KernelIdeal.Frame
import proofs.«131428_j53283364274889_2_alg».proof.Proof.HeadBlock
import Idealize.ShloMosaic.Lib.Pipeline.Value
import Idealize.ShloMosaic.Lib.ValueIdx

noncomputable section

namespace Cert.KernelIdeal.OutputArray

open Cert.KernelIdeal Cert.KernelIdeal.Gen Idealize.ShloMosaic Idealize.ShloMosaic.TcCoe Idealize.ShloMosaic.ValueIdx
open Idealize.SL.Sem
open Idealize.ShloMosaic.Pipeline (Dat)

/-- Output o of row r from the hidden layer, the weights and the bias row. -/
def outAt (a0 : Vec Ideal S4096x4096 .bf16) (a1 : Vec Ideal S4096x1000 .bf16) (a2 : Vec Ideal S1x1000 .f32)
    (r : Fin 4096) (o : Fin 1000) : EReal :=
  (∑ k : Fin 4096, a0 (ix2 r k) * a1 (ix2 k o)) + a2 (ix2 (0 : Fin 1) o)

/-- The output layer as an array. -/
def out (a0 : Vec Ideal S4096x4096 .bf16) (a1 : Vec Ideal S4096x1000 .bf16) (a2 : Vec Ideal S1x1000 .f32) :
    Vec Ideal S4096x1000 .f32 :=
  fun k => outAt a0 a1 a2 ⟨(k 0).val, (k 0).isLt⟩ ⟨(k 1).val, (k 1).isLt⟩

/-- An entry of the output block, when the block arrays are the whole arrays read at row r. -/
theorem block_entry (a0 : Vec Ideal S4096x4096 .bf16) (a1 : Vec Ideal S4096x1000 .bf16) (a2 : Vec Ideal S1x1000 .f32)
    (x0 : Vec Ideal S512x4096 .bf16) (x1 : Vec Ideal S4096x1000 .bf16) (x2 : Vec Ideal S1x1000 .f32)
    (p : Fin 512) (q : Fin 1000) (r : Fin 4096)
    (h0 : ∀ k : Fin 4096, x0 (ix2 p k) = a0 (ix2 r k))
    (h1 : ∀ k : Fin 4096, x1 (ix2 k q) = a1 (ix2 k q))
    (h2 : x2 (ix2 (0 : Fin 1) q) = a2 (ix2 (0 : Fin 1) q)) :
    out1_3 (F := Ideal) x0 x1 x2 (ix2 p q) = outAt a0 a1 a2 r q := by
  rw [HeadBlock.out_apply, h2]
  unfold outAt
  refine congrArg (fun s => s + a2 (ix2 (0 : Fin 1) q)) ?_
  refine Finset.sum_congr rfl fun k _ => ?_
  rw [h0, h1]

section Region
variable (V : (c : Dev nD) → (b : Ref sig .tc) → Buf (Elt Ideal) ((c : Thread nD τ).loc b))

/-- Where each window's block sits at point t, decided over the grid. -/
theorem idx_facts : ∀ t : Fin cfg1.N,
    win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The block of hidden rows at point t: rows 512 * t + p. -/
theorem hidden_apply (c : Dev nD) (t : Fin cfg1.N) (x : S512x4096.Idx) (k : S4096x4096.Idx)
    (hk0 : (k 0).val = t.val * 512 + (x 0).val) (hk1 : (k 1).val = (x 1).val) :
    (iblk1 V c 0 t : Vec Ideal S512x4096 .bf16) x = (V c main_v7 : S4096x4096.Idx → Elt Ideal .bf16) k := by
  obtain ⟨-, -, e0, e1, -⟩ := idx_facts t
  unfold iblk1
  rw [View.read_apply]
  show V c main_v7 _ = V c main_v7 _
  refine congrArg (V c main_v7) (funext fun a => Fin.ext ?_)
  match a with
  | ⟨0, _⟩ => show win1_0.index t (0 : Fin 2) * 512 + 1 * (x 0).val = (k 0).val; rw [e0, hk0]; omega
  | ⟨1, _⟩ => show win1_0.index t (1 : Fin 2) * 4096 + 1 * (x 1).val = (k 1).val; rw [e1, hk1]; omega

/-- The weights' block is the whole weight matrix. -/
theorem weights_apply (c : Dev nD) (t : Fin cfg1.N) (x : S4096x1000.Idx) :
    (iblk1 V c 1 t : Vec Ideal S4096x1000 .bf16) x = (V c main_v5 : S4096x1000.Idx → Elt Ideal .bf16) x := by
  obtain ⟨-, -, -, -, e0, e1, -⟩ := idx_facts t
  unfold iblk1
  rw [View.read_apply]
  show V c main_v5 _ = V c main_v5 _
  refine congrArg (V c main_v5) (funext fun a => Fin.ext ?_)
  match a with
  | ⟨0, _⟩ => show win1_1.index t (0 : Fin 2) * 4096 + 1 * (x 0).val = (x 0).val; rw [e0]; omega
  | ⟨1, _⟩ => show win1_1.index t (1 : Fin 2) * 1000 + 1 * (x 1).val = (x 1).val; rw [e1]; omega

/-- The bias block is the whole bias row. -/
theorem bias_apply (c : Dev nD) (t : Fin cfg1.N) (x : S1x1000.Idx) :
    (iblk1 V c 2 t : Vec Ideal S1x1000 .f32) x = (V c main_v6 : S1x1000.Idx → Elt Ideal .f32) x := by
  obtain ⟨-, -, -, -, -, -, e0, e1⟩ := idx_facts t
  unfold iblk1
  rw [View.read_apply]
  show V c main_v6 _ = V c main_v6 _
  refine congrArg (V c main_v6) (funext fun a => Fin.ext ?_)
  match a with
  | ⟨0, _⟩ => show win1_2.index t (0 : Fin 2) * 1 + 1 * (x 0).val = (x 0).val; rw [e0]; omega
  | ⟨1, _⟩ => show win1_2.index t (1 : Fin 2) * 1000 + 1 * (x 1).val = (x 1).val; rw [e1]; omega

/-- What point t leaves at entry y of its output block is the output layer at the entry's place in the array. -/
theorem point_entry (c : Dev nD) (t : Fin cfg1.N) (y : S512x1000.Idx) (k : S4096x1000.Idx)
    (hk0 : (k 0).val = t.val * 512 + (y 0).val) (hk1 : (k 1).val = (y 1).val) :
    out1_3 (F := Ideal) (iblk1 V c 0 t) (iblk1 V c 1 t) (iblk1 V c 2 t) y
      = out (V c main_v7) (V c main_v5) (V c main_v6) k := by
  obtain ⟨p, q, rfl⟩ : ∃ (p : Fin 512) (q : Fin 1000), y = ix2 p q := ⟨y 0, y 1, eq_ix2 y⟩
  unfold out
  have hq : (⟨(k 1).val, (k 1).isLt⟩ : Fin 1000) = q := Fin.ext hk1
  rw [hq]
  refine block_entry (V c main_v7) (V c main_v5) (V c main_v6)
    (iblk1 V c 0 t) (iblk1 V c 1 t) (iblk1 V c 2 t) p q ⟨(k 0).val, (k 0).isLt⟩ ?_ ?_ ?_
  · intro kk; exact hidden_apply V c t (ix2 p kk) _ hk0 rfl
  · intro kk; exact weights_apply V c t (ix2 kk q)
  · exact bias_apply V c t (ix2 (0 : Fin 1) q)

/-- WHAT POINT t WRITES BACK is block t of the output layer. -/
theorem flushed_eq (c : Dev nD) (t : Fin cfg1.N) :
    (dat1 (F := Ideal) V c).flushed 3 t = ((cfg1.win 3).blk t).view.read (Elt Ideal)
      (out (V c main_v7) (V c main_v5) (V c main_v6)) := by
  show (cfg1.win 3).cut (grid1.coords t) ((dat1 (F := Ideal) V c).after 3 t) = _
  rw [after1_3]
  obtain ⟨e0, e1, -⟩ := idx_facts t
  funext j
  rw [View.read_apply]
  refine point_entry V c t j _ ?_ ?_
  · show win1_3.index t (0 : Fin 2) * 512 + 1 * (j 0).val = _; rw [e0]; omega
  · show win1_3.index t (1 : Fin 2) * 1000 + 1 * (j 1).val = _; rw [e1]; omega

/-- An index of the array is in point t's block iff each coordinate is in the block's range. -/
theorem mem_blk (t : Fin cfg1.N) (i : S4096x1000.Idx) :
    i ∈ ((cfg1.win 3).blk t).view.set ↔ ∀ a : Fin 2, win1_3.index t a * S512x1000.size a ≤ (i a).val
      ∧ (i a).val < win1_3.index t a * S512x1000.size a + S512x1000.size a := by
  show i ∈ ((View.whole main_v8).slice (win1_3.rect t)).set ↔ _
  rw [View.set_slice_whole, Rect.mem_set_unit]
  exact Iff.rfl

/-- Every entry of the array is in some point's block. -/
theorem cover (i : S4096x1000.Idx) :
    ∃ t : Fin cfg1.N, (cfg1.win 3).flush t = true ∧ i ∈ ((cfg1.win 3).blk t).view.set := by
  have h0 : (i 0).val < 4096 := (i 0).isLt
  have h1 : (i 1).val < 1000 := (i 1).isLt
  have hN : cfg1.N = 8 := N_1
  have hlt : (i 0).val / 512 < cfg1.N := by rw [hN]; omega
  refine ⟨⟨(i 0).val / 512, hlt⟩, flush1_3 _, ?_⟩
  rw [mem_blk]
  obtain ⟨e0, e1, -⟩ := idx_facts ⟨(i 0).val / 512, hlt⟩
  intro a
  match a with
  | ⟨0, _⟩ =>
    show win1_3.index _ (0 : Fin 2) * 512 ≤ (i 0).val ∧ (i 0).val < win1_3.index _ (0 : Fin 2) * 512 + 512
    rw [e0]
    show (i 0).val / 512 * 512 ≤ (i 0).val ∧ (i 0).val < (i 0).val / 512 * 512 + 512
    omega
  | ⟨1, _⟩ =>
    show win1_3.index _ (1 : Fin 2) * 1000 ≤ (i 1).val ∧ (i 1).val < win1_3.index _ (1 : Fin 2) * 1000 + 1000
    rw [e1]
    omega

/-- THE ARRAY after the second kernel: the output layer, a function of the arrays the kernel was given. -/
theorem final (c : Dev nD) : (dat1 (F := Ideal) V c).arrAt 3 cfg1.N
    = out (V c main_v7) (V c main_v5) (V c main_v6) :=
  (dat1 (F := Ideal) V c).arrAt_eq_of_cover 3 _ (fun t _ => flushed_eq V c t) cover

end Region

end Cert.KernelIdeal.OutputArray

end
-- ==== Proof.Joined.lean ====
/-
  The two kernels together compute the specification.

  The program around the kernels hands them the centres and scales transposed (basis index first), the first weight
  matrix reshaped from 16384 x 4096 to 1024 x 16 x 4096 (row i*16 + b becomes (i,b)), and the biases as one-row
  matrices; narrowing a weight to bfloat16 changes nothing over the extended reals.  Reading each of these at an
  index turns the hidden layer the first kernel leaves, and the output layer the second kernel leaves from it, into
  the specification's formulas.
-/
import proofs.«131428_j53283364274889_2_alg».proof.Proof.HiddenArray
import proofs.«131428_j53283364274889_2_alg».proof.Proof.OutputArray
import proofs.«131428_j53283364274889_2_alg».proof.Proof.Spec
import Idealize.ShloMosaic.Lib.Pipeline.Value
import Idealize.ShloMosaic.Lib.ValueIdx

noncomputable section

namespace Cert.KernelIdeal.Joined

open Cert.KernelIdeal Cert.KernelIdeal.Gen Idealize.ShloMosaic Idealize.ShloMosaic.ValueIdx
open Cert.BasisNet

/-- The hidden layer from the arrays as the program prepares them for the first kernel. -/
def hiddenArr (a0 : Vec Ideal S4096x1024 .f32) (a1 a2 : Vec Ideal S1024x16 .f32) (a3 : Vec Ideal S16384x4096 .f32)
    (a4 : Vec Ideal S4096 .f32) : Vec Ideal S4096x4096 .bf16 :=
  HiddenArray.hid a0 (transpose S16x1024 [1, 0] a1 transposes_S1024x16_S16x1024_1_0)
    (transpose S16x1024 [1, 0] a2 transposes_S1024x16_S16x1024_1_0)
    (shapeCast S1024x16x4096 (truncf .bf16 a3 bitsLt_bf16_f32 : FVec Ideal S16384x4096 .bf16) shapeCasts_S16384x4096_S1024x16x4096)
    (shapeCast S1x4096 a4 shapeCasts_S4096_S1x4096)

/-- The output from the hidden layer and the arrays as the program prepares them for the second kernel. -/
def outputArr (h : Vec Ideal S4096x4096 .bf16) (a5 : Vec Ideal S4096x1000 .f32) (a6 : Vec Ideal S1000 .f32) :
    Vec Ideal S4096x1000 .f32 :=
  OutputArray.out h (truncf .bf16 a5 bitsLt_bf16_f32 : FVec Ideal S4096x1000 .bf16) (shapeCast S1x1000 a6 shapeCasts_S1000_S1x1000)

/-- A transposed 1024 x 16 array at (b,i) is the array at (i,b). -/
theorem transposed_apply (a : Vec Ideal S1024x16 .f32) (b : Fin 16) (i : Fin 1024) :
    transpose S16x1024 [1, 0] a transposes_S1024x16_S16x1024_1_0 (ix2 b i) = a (ix2 i b) := by
  refine transpose_apply [1, 0] a transposes_S1024x16_S16x1024_1_0 (ix2 b i) (ix2 i b) fun c => ?_
  match c with
  | ⟨0, _⟩ => rfl
  | ⟨1, _⟩ => rfl

/-- The reshaped weights at (i,b,n) are the weight matrix at row i*16 + b. -/
theorem slab_apply (a3 : Vec Ideal S16384x4096 .f32) (i : Fin 1024) (b : Fin 16) (n : Fin 4096) :
    shapeCast S1024x16x4096 (truncf .bf16 a3 bitsLt_bf16_f32 : FVec Ideal S16384x4096 .bf16)
      shapeCasts_S16384x4096_S1024x16x4096 (ix3 i b n) = a3 (ix2 (flat i b) n) := by
  refine (shapeCast_apply (truncf .bf16 a3 bitsLt_bf16_f32 : FVec Ideal S16384x4096 .bf16)
    shapeCasts_S16384x4096_S1024x16x4096 (ix3 i b n) (ix2 (flat i b) n) ?_).trans rfl
  rewrite [Shape.rowMajor_val_three, Shape.rowMajor_val_two]
  show (i.val * 16 + b.val) * 4096 + n.val = (i.val * 16 + b.val) * 4096 + n.val
  rfl

/-- A vector laid out as a one-row matrix, at (0,n), is the vector at n. -/
theorem row4096_apply (a4 : Vec Ideal S4096 .f32) (n : Fin 4096) :
    shapeCast S1x4096 a4 shapeCasts_S4096_S1x4096 (ix2 (0 : Fin 1) n) = a4 (ix1 n) := by
  refine shapeCast_apply a4 shapeCasts_S4096_S1x4096 (ix2 (0 : Fin 1) n) (ix1 n) ?_
  rewrite [Shape.rowMajor_val_two, Shape.rowMajor_val_one]
  show n.val = 0 * 4096 + n.val
  omega

theorem row1000_apply (a6 : Vec Ideal S1000 .f32) (o : Fin 1000) :
    shapeCast S1x1000 a6 shapeCasts_S1000_S1x1000 (ix2 (0 : Fin 1) o) = a6 (ix1 o) := by
  refine shapeCast_apply a6 shapeCasts_S1000_S1x1000 (ix2 (0 : Fin 1) o) (ix1 o) ?_
  rewrite [Shape.rowMajor_val_two, Shape.rowMajor_val_one]
  show o.val = 0 * 1000 + o.val
  omega

/-- The hidden layer the first kernel leaves is the specification's. -/
theorem hidden_eq (a0 : Vec Ideal S4096x1024 .f32) (a1 a2 : Vec Ideal S1024x16 .f32) (a3 : Vec Ideal S16384x4096 .f32)
    (a4 : Vec Ideal S4096 .f32) (r n : Fin 4096) :
    hiddenArr a0 a1 a2 a3 a4 (ix2 r n) = Cert.BasisNet.hidden a0 a1 a2 a3 a4 r n := by
  unfold hiddenArr HiddenArray.hid
  show HiddenArray.hidAt a0 _ _ _ _ r n = _
  unfold HiddenArray.hidAt Cert.BasisNet.hidden share feat
  rw [row4096_apply]
  refine congrArg (fun s => Ideal.logistic (s + a4 (ix1 n))) ?_
  refine Finset.sum_congr rfl fun b _ => Finset.sum_congr rfl fun i _ => ?_
  rw [transposed_apply, transposed_apply, slab_apply]

/-- THE TWO KERNELS' RESULT is the specification's output array. -/
theorem output_eq (a0 : Vec Ideal S4096x1024 .f32) (a1 a2 : Vec Ideal S1024x16 .f32) (a3 : Vec Ideal S16384x4096 .f32)
    (a4 : Vec Ideal S4096 .f32) (a5 : Vec Ideal S4096x1000 .f32) (a6 : Vec Ideal S1000 .f32) :
    outputArr (hiddenArr a0 a1 a2 a3 a4) a5 a6 = logits a0 a1 a2 a3 a4 a5 a6 := by
  funext j
  obtain ⟨r, o, rfl⟩ : ∃ (r : Fin 4096) (o : Fin 1000), j = ix2 r o := ⟨j 0, j 1, eq_ix2 j⟩
  rw [logits_apply]
  unfold outputArr OutputArray.out
  show OutputArray.outAt _ _ _ r o = _
  unfold OutputArray.outAt logit
  rw [row1000_apply]
  refine congrArg (fun s => s + a6 (ix1 o)) ?_
  refine Finset.sum_congr rfl fun k _ => ?_
  rw [hidden_eq]
  rfl

end Cert.KernelIdeal.Joined

end
-- ==== Proof.KernelValue.lean ====
/-
  The idealized kernel program's result.

  At the first region's entry the host stretch has written the transposed centres and scales, the weights narrowed and
  reshaped, and the biases as rows; the arguments are untouched.  The first region leaves the hidden layer in its
  output array and nothing else changes; the second region reads it, with the narrowed second weight matrix and the
  second bias row as the host stretch left them, and leaves the output layer in the result buffer.  Composed, the
  result buffer ends at the specification's output array of the arguments.
-/
import proofs.«131428_j53283364274889_2_alg».proof.Proof.AllBuffers
import proofs.«131428_j53283364274889_2_alg».proof.Proof.HiddenArray
import proofs.«131428_j53283364274889_2_alg».proof.Proof.OutputArray
import proofs.«131428_j53283364274889_2_alg».proof.Proof.Joined
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.StableHlo
open Cert.BasisNet

variable (m : (ℓ : Loc nD τ sig) → Buf (Elt Ideal) ℓ) (ρ : Dev nD → PrngReg)

/-! ## What the host stretch leaves at the first region's entry -/

theorem entry_inputs (c : Dev nD) :
    (V1 m ρ c main_arg0 : S4096x1024.Idx → Elt Ideal .f32) = m ((c : Thread nD τ).loc main_arg0) := by
  show StableHlo.after hostOps0 (W0 m ρ c) (Proc.devRef .tc main_arg0) = _
  after_results <;> rfl

theorem entry_centres (c : Dev nD) :
    (V1 m ρ c main_v0 : S16x1024.Idx → Elt Ideal .f32)
      = transpose S16x1024 [1, 0] (m ((c : Thread nD τ).loc main_arg1)) transposes_S1024x16_S16x1024_1_0 := by
  show StableHlo.after hostOps0 (W0 m ρ c) (Proc.devRef .tc main_v0) = _
  after_results <;> rfl

theorem entry_scales (c : Dev nD) :
    (V1 m ρ c main_v1 : S16x1024.Idx → Elt Ideal .f32)
      = transpose S16x1024 [1, 0] (m ((c : Thread nD τ).loc main_arg2)) transposes_S1024x16_S16x1024_1_0 := by
  show StableHlo.after hostOps0 (W0 m ρ c) (Proc.devRef .tc main_v1) = _
  after_results <;> rfl

theorem entry_weights (c : Dev nD) :
    (V1 m ρ c main_v3 : S1024x16x4096.Idx → Elt Ideal .bf16)
      = shapeCast S1024x16x4096 (truncf .bf16 (m ((c : Thread nD τ).loc main_arg3)) bitsLt_bf16_f32 : FVec Ideal S16384x4096 .bf16)
          shapeCasts_S16384x4096_S1024x16x4096 := by
  show StableHlo.after hostOps0 (W0 m ρ c) (Proc.devRef .tc main_v3) = _
  after_results <;> rfl

theorem entry_bias (c : Dev nD) :
    (V1 m ρ c main_v4 : S1x4096.Idx → Elt Ideal .f32)
      = shapeCast S1x4096 (m ((c : Thread nD τ).loc main_arg4)) shapeCasts_S4096_S1x4096 := by
  show StableHlo.after hostOps0 (W0 m ρ c) (Proc.devRef .tc main_v4) = _
  after_results <;> rfl

theorem entry_weights2 (c : Dev nD) :
    (V1 m ρ c main_v5 : S4096x1000.Idx → Elt Ideal .bf16)
      = (truncf .bf16 (m ((c : Thread nD τ).loc main_arg5)) bitsLt_bf16_f32 : FVec Ideal S4096x1000 .bf16) := by
  show StableHlo.after hostOps0 (W0 m ρ c) (Proc.devRef .tc main_v5) = _
  after_results <;> rfl

theorem entry_bias2 (c : Dev nD) :
    (V1 m ρ c main_v6 : S1x1000.Idx → Elt Ideal .f32)
      = shapeCast S1x1000 (m ((c : Thread nD τ).loc main_arg6)) shapeCasts_S1000_S1x1000 := by
  show StableHlo.after hostOps0 (W0 m ρ c) (Proc.devRef .tc main_v6) = _
  after_results <;> rfl

/-! ## The regions, composed -/

/-- The hidden layer's buffer at the second region's entry. -/
theorem hidden_buffer (c : Dev nD) :
    (V2 m ρ c main_v7 : S4096x4096.Idx → Elt Ideal .bf16)
      = Joined.hiddenArr (m ((c : Thread nD τ).loc main_arg0)) (m ((c : Thread nD τ).loc main_arg1))
          (m ((c : Thread nD τ).loc main_arg2)) (m ((c : Thread nD τ).loc main_arg3)) (m ((c : Thread nD τ).loc main_arg4)) := by
  refine ((W2_arr m ρ c 5).trans (HiddenArray.final (V1 m ρ) c)).trans ?_
  rw [entry_inputs, entry_centres, entry_scales, entry_weights, entry_bias]
  rfl

/-- The second weight matrix and bias row reach the second region as the host stretch left them. -/
theorem weights2_buffer (c : Dev nD) :
    (V2 m ρ c main_v5 : S4096x1000.Idx → Elt Ideal .bf16)
      = (truncf .bf16 (m ((c : Thread nD τ).loc main_arg5)) bitsLt_bf16_f32 : FVec Ideal S4096x1000 .bf16) :=
  (W2_of_ne m ρ c main_v5 (by decide)).trans (entry_weights2 m ρ c)

theorem bias2_buffer (c : Dev nD) :
    (V2 m ρ c main_v6 : S1x1000.Idx → Elt Ideal .f32)
      = shapeCast S1x1000 (m ((c : Thread nD τ).loc main_arg6)) shapeCasts_S1000_S1x1000 :=
  (W2_of_ne m ρ c main_v6 (by decide)).trans (entry_bias2 m ρ c)

/-- THE RESULT BUFFER at the last boundary is the specification's output array of the arguments. -/
theorem result_eq (c : Dev nD) :
    (W3 m ρ c (Proc.devRef .tc main_v8) : S4096x1000.Idx → Elt Ideal .f32)
      = logits (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine ((W3_arr m ρ c 3).trans (OutputArray.final (V2 m ρ) c)).trans ?_
  rw [hidden_buffer, weights2_buffer, bias2_buffer]
  exact Joined.output_eq _ _ _ _ _ _ _

/-- THE RUN, READ: the result buffer ends at the specification's output array of the arguments, which end unchanged. -/
theorem run : θ_run defs (onTc (τ := τ) (main (F := Ideal))) ⟨m, fun _ => 0, ρ⟩ (fun r => ∀ c : Dev nD,
      r.2.mem ((c.tc : Thread nD τ).loc main_v8)
        = logits (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v8 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩)
    (run_all (F := Ideal) m ρ)

end Cert.KernelIdeal.Whole

end
-- ==== Proof.lean ====
/-
  The kernel program (two fused kernels: a tanh basis expansion contracted with a weight matrix, bias and logistic
  function; then a second weight matrix and bias) and the reference network compute, over the extended reals, the same
  output array of their arguments.

  The specification (Proof/Spec.lean) states the output entry by entry: feature (i,b) of row r is
  tanh((x(r,i) - c(i,b)) * s(i,b)), hidden unit n is the logistic function of the sum over all (i,b) of feature times
  weight, plus bias, and output o is the sum over the hidden units of hidden value times weight, plus bias.
  The reference contracts the 16384 features of a row in one pass over the flattened axis (Proof/RefValue.lean);
  the first kernel takes them basis by basis — sixteen matrix products over the 1024 input coordinates added one
  after the other — block by block of the hidden layer (Proof/BasisBlock.lean, Proof/HiddenArray.lean), and the second
  kernel contracts the hidden layer block of rows by block of rows (Proof/HeadBlock.lean, Proof/OutputArray.lean).
  The sums differ only in the order and grouping of their terms, and the program around the kernels only transposes,
  reshapes and narrows the arguments (Proof/Joined.lean); addition of extended reals is commutative and associative,
  so the results agree with no appeal to the finiteness of the inputs.  The run of the three segments of the kernel
  program with every buffer named at the end is Proof/AllBuffers.lean and Proof/KernelValue.lean.
-/
import proofs.«131428_j53283364274889_2_alg».proof.Defs
import proofs.«131428_j53283364274889_2_alg».proof.Proof.Gen.Kernel
import proofs.«131428_j53283364274889_2_alg».proof.Proof.Gen.Kernel.Skeleton
import proofs.«131428_j53283364274889_2_alg».proof.Proof.Gen.Kernel.Launch
import proofs.«131428_j53283364274889_2_alg».proof.Proof.Gen.Kernel.Points
import proofs.«131428_j53283364274889_2_alg».proof.Proof.Gen.Kernel.Frame
import proofs.«131428_j53283364274889_2_alg».proof.Proof.Gen.KernelIdeal
import proofs.«131428_j53283364274889_2_alg».proof.Proof.Gen.KernelIdeal.Skeleton
import proofs.«131428_j53283364274889_2_alg».proof.Proof.Gen.KernelIdeal.Launch
import proofs.«131428_j53283364274889_2_alg».proof.Proof.Gen.KernelIdeal.Points
import proofs.«131428_j53283364274889_2_alg».proof.Proof.Gen.KernelIdeal.Frame
import proofs.«131428_j53283364274889_2_alg».proof.Proof.Gen.ReferenceIdeal
import proofs.«131428_j53283364274889_2_alg».proof.Proof.Gen.Pre_finite_inputs
import proofs.«131428_j53283364274889_2_alg».proof.Proof.Gen.ReferenceIdeal.Run
import proofs.«131428_j53283364274889_2_alg».proof.Proof.Gen.ReferenceIdeal.Read
import proofs.«131428_j53283364274889_2_alg».proof.Proof.RefValue
import proofs.«131428_j53283364274889_2_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized one. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's output array of the arguments in their result buffers. -/
theorem algebraic : Cert.algebraic_KernelIdeal_ReferenceIdeal := by
  intro m ρ m' ρ' _ hagree
  refine ⟨fun c => Cert.BasisNet.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
